-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048 : Shape := ⟨2, ![4, 2048]⟩
abbrev S1024x3072 : Shape := ⟨2, ![1024, 3072]⟩
abbrev S3072 : Shape := ⟨1, ![3072]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  main_v18

def fn {F : FTy → Type} [FloatOps F] (main_arg0 : FVec F S4x2048x1024 .f32) (main_arg1 : FVec F S4x2048 .f32) (main_arg2 : FVec F S1024x3072 .f32) (main_arg3 : FVec F S3072 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_v13 main_v16
-- ==== Kernel.lean ====
abbrev S4x2048x1024 : Shape := ⟨3, ![4, 2048, 1024]⟩
abbrev S4x2048 : Shape := ⟨2, ![4, 2048]⟩
abbrev S1024x3072 : Shape := ⟨2, ![1024, 3072]⟩
abbrev S3072 : Shape := ⟨1, ![3072]⟩
abbrev S8192x1024 : Shape := ⟨2, ![8192, 1024]⟩
abbrev S4x1x2048 : Shape := ⟨3, ![4, 1, 2048]⟩
abbrev S1024x1024 : Shape := ⟨2, ![1024, 1024]⟩
abbrev S1x3072 : Shape := ⟨2, ![1, 3072]⟩
abbrev S1x512x1024 : Shape := ⟨3, ![1, 512, 1024]⟩
abbrev S1x2048x1024 : Shape := ⟨3, ![1, 2048, 1024]⟩
abbrev S1x1x2048 : Shape := ⟨3, ![1, 1, 2048]⟩
abbrev S512x1024 : Shape := ⟨2, ![512, 1024]⟩
abbrev S2048x1024 : Shape := ⟨2, ![2048, 1024]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .f32⟩
  | .hbm, ⟨2, _⟩ => ⟨S1024x3072, .f32⟩
  | .hbm, ⟨3, _⟩ => ⟨S3072, .f32⟩
  | .hbm, ⟨4, _⟩ => ⟨S8192x1024, .f32⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S4x2048x1024, .bf16⟩
  | .hbm, ⟨9, _⟩ => ⟨S4x2048x1024, .bf16⟩
  | .hbm, ⟨10, _⟩ => ⟨S4x2048x1024, .bf16⟩
  | .hbm, ⟨11, _⟩ => ⟨S4x1x2048, .f32⟩
  | .hbm, ⟨12, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .f32⟩
  | .local _ .vmem, ⟨3, _⟩ => ⟨S3072, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x1x2048, .f32⟩
  | .local _ .vmem, ⟨17, _⟩ => ⟨S1x1x2048, .f32⟩
  | .local _ .vmem, ⟨18, _⟩ => ⟨S1x512x1024, .f32⟩
  | .local _ .vmem, ⟨19, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_call0_v1_1 : Ref sig .tc := ⟨.hbm, 6, rfl⟩
abbrev main_call0_v1_2 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S4x2048x1024_S8192x1024 : S4x2048x1024.ShapeCasts S8192x1024
  shapeCasts_S8192x1024_S4x2048x1024 : S8192x1024.ShapeCasts S4x2048x1024
  shapeCasts_S4x2048_S4x1x2048 : S4x2048.ShapeCasts S4x1x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x3072_S1024x3072_0_0 : ∀ a, (![0, 0] : Fin 2 → Nat) a + S1024x3072.size a ≤ S1024x3072.size a
  h_S1024x3072 : 0 < S1024x3072.numel
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S1024x3072 : S1x3072.Broadcasts S1024x3072
  slices_S1024x3072_o0_0_S1024x1024 : S1024x3072.Slices ![0, 0] S1024x1024
  packedbf16_S1024x1024_S1024x1024_0_0 : (Rect.unit (s := S1024x1024) ![0, 0] S1024x1024.size inb_S1024x1024_S1024x1024_0_0).PackedRows (EltTy.packing .bf16)
  slices_S1024x3072_o0_1024_S1024x1024 : S1024x3072.Slices ![0, 1024] S1024x1024
  slices_S1024x3072_o0_2048_S1024x1024 : S1024x3072.Slices ![0, 2048] S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  shapeCasts_S512x1024_S1x512x1024 : S512x1024.ShapeCasts S1x512x1024
  dot_S1024x1024_S1024x3072_S1024x3072_1_0_0_1_n_n_wf : DotDims.WF S1024x1024 S1024x3072 S1024x3072 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .f32 = 32 ∨ (Rect.block (s := S1024x3072) S1024x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .bf16 = 32 ∨ (Rect.block (s := S8192x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .bf16 = 32 ∨ (Rect.block (s := S8192x1024) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S4x1x2048.size a
  hwx1_3 : ∀ i : grid1.Coords, EltTy.bits .f32 = 32 ∨ (Rect.block (s := S4x1x2048) S1x1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x1024.size a ≤ S4x2048x1024.size a
  hwx1_4 : ∀ i : grid1.Coords, EltTy.bits .f32 = 32 ∨ (Rect.block (s := S4x2048x1024) S1x512x1024.size (cc1_transform_4 i) (hinb1_4 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_call0_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1_1) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1_2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v2) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v3) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v4) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v5) S1x1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S4x2048 : Shape := ⟨2, ![4, 2048]⟩
abbrev S1024x3072 : Shape := ⟨2, ![1024, 3072]⟩
abbrev S3072 : Shape := ⟨1, ![3072]⟩
abbrev S4x2048x3072 : Shape := ⟨3, ![4, 2048, 3072]⟩
abbrev S1x1x3072 : Shape := ⟨3, ![1, 1, 3072]⟩
abbrev S_ : Shape := ⟨0, ![]⟩
abbrev S4x2048x2048 : Shape := ⟨3, ![4, 2048, 2048]⟩
abbrev S4x1x2048 : Shape := ⟨3, ![4, 1, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .f32⟩
  | .hbm, ⟨2, _⟩ => ⟨S1024x3072, .f32⟩
  | .hbm, ⟨3, _⟩ => ⟨S3072, .f32⟩
  | .hbm, ⟨4, _⟩ => ⟨S4x2048x3072, .f32⟩
  | .hbm, ⟨5, _⟩ => ⟨S1x1x3072, .f32⟩
  | .hbm, ⟨6, _⟩ => ⟨S4x2048x3072, .f32⟩
  | .hbm, ⟨7, _⟩ => ⟨S4x2048x3072, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048x1024, .f32⟩
  | .hbm, ⟨13, _⟩ => ⟨S4x2048x1024, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x1x2048, .f32⟩
  | .hbm, ⟨19, _⟩ => ⟨S_, .f32⟩
  | .hbm, ⟨20, _⟩ => ⟨S4x1x2048, .f32⟩
  | .hbm, ⟨21, _⟩ => ⟨S4x1x2048, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  bcast_S_S4x2048x1024 : S_.BroadcastsInDim S4x2048x1024 (![] : Fin 0 → Fin S4x2048x1024.rank)
  bcast_S_S4x2048 : S_.BroadcastsInDim S4x2048 (![] : Fin 0 → Fin S4x2048.rank)
  bcast_S4x2048_S4x1x2048_0_2 : S4x2048.BroadcastsInDim S4x1x2048 (![0, 2] : Fin 2 → Fin S4x1x2048.rank)
  bcast_S_S4x1x2048 : S_.BroadcastsInDim S4x1x2048 (![] : Fin 0 → Fin S4x1x2048.rank)
  bcast_S4x1x2048_S4x2048x2048_0_1_2 : S4x1x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x3072_S4x2048x3072_2_0_01_1_n_n_wf : DotDims.WF S4x2048x1024 S1024x3072 S4x2048x3072 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x3072_S4x2048x3072_2_0_01_1_n_n : DotDims S4x2048x1024 S1024x3072 S4x2048x3072 where
  lhsContracting := [2]
  rhsContracting := [0]
  lhsNonContracting := [0, 1]
  rhsNonContracting := [1]
  lhsBatch := []
  rhsBatch := []
  wf := dot_S4x2048x1024_S1024x3072_S4x2048x3072_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  The mathematics of one attention head-less layer, entry by entry, on the extended reals.

  A row of the projection is  x · W + b ; the query is that row's first third times the scale word, the key its
  second third, the value its last third.  A score is  q · k + (1 - mask) · (-10000) ; a row of scores is
  exponentiated after subtracting its maximum, and the result is the exponentials' weighted mean of the values.
  The two programs differ in ONE place: the kernel divides the weighted sum by the sum of the exponentials
  (`outK`), the reference divides every exponential first and then sums (`outR`).
-/
import Idealize.ShloMosaic.PureOps.Ideal
import Idealize.ShloMosaic.Lib.ValueIdx

noncomputable section

namespace Cert.Attn

open Idealize.ShloMosaic

/-- The four float words both programs spell the same way: 2⁻⁵, 1, -10000, -∞; and the zero a sum starts from. -/
abbrev cScale : EReal := Ideal.ofBits .f32 0x3D000000#32
abbrev cOne : EReal := Ideal.ofBits .f32 0x3F800000#32
abbrev cNeg : EReal := Ideal.ofBits .f32 0xC61C4000#32
abbrev cNinf : EReal := Ideal.ofBits .f32 0xFF800000#32
abbrev cZero : EReal := Ideal.ofBits .f32 0x00000000#32

/-- Column `o + d` of the 3072 projected columns: the query's are at offset 0, the key's at 1024, the value's at 2048. -/
def col (o : Nat) (ho : o + 1024 ≤ 3072) (d : Fin 1024) : Fin 3072 := ⟨o + d.val, by have := d.isLt; omega⟩

/-- One entry of the projection: a row of the input against a column of the weights, plus the bias. -/
def proj (x w : Fin 1024 → EReal) (b : EReal) : EReal := (∑ j, x j * w j) + b

/-- One score: a query row against a key row, plus the mask's penalty. -/
def score (q k : Fin 1024 → EReal) (mk : EReal) : EReal := (∑ d, q d * k d) + (cOne - mk) * cNeg

/-- The maximum of a row of scores, folded from -∞. -/
def rowMax (S : Fin 2048 → EReal) : EReal := (Finset.univ : Finset (Fin 2048)).fold max cNinf S

/-- The kernel's arrangement: the weighted sum of the values, divided by the sum of the weights. -/
def outK (S v : Fin 2048 → EReal) : EReal :=
  Ideal.div (∑ k, Ideal.exp (S k - rowMax S) * v k) (∑ k, Ideal.exp (S k - rowMax S))

/-- The reference's arrangement: every weight divided by the sum of the weights (a sum started from the zero word, the
    maximum taken once more against -∞), then the weighted sum of the values. -/
def outR (S v : Fin 2048 → EReal) : EReal :=
  ∑ k, Ideal.div (Ideal.exp (S k - max cNinf (rowMax S))) (cZero + ∑ k', Ideal.exp (S k' - max cNinf (rowMax S))) * v k

/-! ## The same, over the argument arrays: input [4,2048,1024], mask [4,2048], weights [1024,3072], bias [3072] -/

open ValueIdx in
/-- Entry (b, s, o + d) of the projection of the argument arrays. -/
def projAt (o : Nat) (ho : o + 1024 ≤ 3072) (x : (⟨3, ![4, 2048, 1024]⟩ : Shape).Idx → EReal)
    (w : (⟨2, ![1024, 3072]⟩ : Shape).Idx → EReal) (bb : (⟨1, ![3072]⟩ : Shape).Idx → EReal)
    (b : Fin 4) (s : Fin 2048) (d : Fin 1024) : EReal :=
  proj (fun j => x (ix3 b s j)) (fun j => w (ix2 j (col o ho d))) (bb (ix1 (col o ho d)))

/-- The scaled query, the key and the value at (b, s, d). -/
def qAt (x : (⟨3, ![4, 2048, 1024]⟩ : Shape).Idx → EReal) (w : (⟨2, ![1024, 3072]⟩ : Shape).Idx → EReal)
    (bb : (⟨1, ![3072]⟩ : Shape).Idx → EReal) (b : Fin 4) (s : Fin 2048) (d : Fin 1024) : EReal :=
  projAt 0 (by norm_num) x w bb b s d * cScale
def kAt (x : (⟨3, ![4, 2048, 1024]⟩ : Shape).Idx → EReal) (w : (⟨2, ![1024, 3072]⟩ : Shape).Idx → EReal)
    (bb : (⟨1, ![3072]⟩ : Shape).Idx → EReal) (b : Fin 4) (s : Fin 2048) (d : Fin 1024) : EReal :=
  projAt 1024 (by norm_num) x w bb b s d
def vAt (x : (⟨3, ![4, 2048, 1024]⟩ : Shape).Idx → EReal) (w : (⟨2, ![1024, 3072]⟩ : Shape).Idx → EReal)
    (bb : (⟨1, ![3072]⟩ : Shape).Idx → EReal) (b : Fin 4) (s : Fin 2048) (d : Fin 1024) : EReal :=
  projAt 2048 (by norm_num) x w bb b s d

open ValueIdx in
/-- Row (b, s) of the scores: query row s of batch b against every key row k of that batch, with the mask's penalty at k. -/
def scoreRow (x : (⟨3, ![4, 2048, 1024]⟩ : Shape).Idx → EReal) (mk : (⟨2, ![4, 2048]⟩ : Shape).Idx → EReal)
    (w : (⟨2, ![1024, 3072]⟩ : Shape).Idx → EReal) (bb : (⟨1, ![3072]⟩ : Shape).Idx → EReal)
    (b : Fin 4) (s : Fin 2048) : Fin 2048 → EReal :=
  fun k => score (qAt x w bb b s) (kAt x w bb b k) (mk (ix2 b k))

/-- An extended real that is a real number. -/
def IsReal (x : EReal) : Prop := ∃ r : ℝ, x = (r : EReal)

end Cert.Attn

end
-- ==== Proof.Region0.lean ====
/-
  The projection block, entry by entry, on the extended reals.

  At one grid point the body holds a block x of 1024 input rows, the whole weights W [1024, 3072] and the bias b [3072].
  It forms x · W + b over all 3072 columns and cuts the result into three column ranges of 1024: the query's at offset 0
  (multiplied by the scale word 2⁻⁵), the key's at 1024, the value's at 2048.  Entry (p, d) of each range therefore
  depends on row p of the block, on column o + d of the weights and on the bias at o + d, and is the specification's
  `proj` of those three (times the scale for the query).

  The rounding to the narrower float type on the way into the product and on the way out is the identity on the extended
  reals; the product into an accumulator of zeros is the plain sum over the contracted axis.
-/
import proofs.«112890_j41695542509961_2_alg».proof.Proof.Gen.KernelIdeal.Frame
import proofs.«112890_j41695542509961_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Cert.Attn Idealize.ShloMosaic Idealize.ShloMosaic.ValueIdx

/-! ## Where the product reads its operands -/

/-- The product's left operand is read at the output's row: axis 0 of the left operand is not contracted; -/
theorem lhs_row (i : S1024x3072.Idx) (q : dot_S1024x1024_S1024x3072_S1024x3072_1_0_0_1_n_n.contr.Idx) :
    (dot_S1024x1024_S1024x3072_S1024x3072_1_0_0_1_n_n.lhsIdx i q 0).val = (i 0).val := by
  unfold DotDims.lhsIdx
  rw [dif_neg (show ¬(0 : Fin S1024x1024.rank) ∈ dot_S1024x1024_S1024x3072_S1024x3072_1_0_0_1_n_n.lhsBatch by decide),
    dif_pos (show (0 : Fin S1024x1024.rank) ∈ dot_S1024x1024_S1024x3072_S1024x3072_1_0_0_1_n_n.lhsNonContracting by decide)]
  rfl

/-- and at the contracted coordinate on its axis 1. -/
theorem lhs_contr (i : S1024x3072.Idx) (q : dot_S1024x1024_S1024x3072_S1024x3072_1_0_0_1_n_n.contr.Idx) :
    (dot_S1024x1024_S1024x3072_S1024x3072_1_0_0_1_n_n.lhsIdx i q 1).val = (q ⟨0, by decide⟩).val :=
  dot_S1024x1024_S1024x3072_S1024x3072_1_0_0_1_n_n.lhsIdx_val_of_single rfl i q

/-- The right operand is read at the contracted coordinate on its axis 0; -/
theorem rhs_contr (i : S1024x3072.Idx) (q : dot_S1024x1024_S1024x3072_S1024x3072_1_0_0_1_n_n.contr.Idx) :
    (dot_S1024x1024_S1024x3072_S1024x3072_1_0_0_1_n_n.rhsIdx i q 0).val = (q ⟨0, by decide⟩).val :=
  dot_S1024x1024_S1024x3072_S1024x3072_1_0_0_1_n_n.rhsIdx_val_of_single rfl i q

/-- and at the output's column: axis 1 of the right operand is not contracted. -/
theorem rhs_col (i : S1024x3072.Idx) (q : dot_S1024x1024_S1024x3072_S1024x3072_1_0_0_1_n_n.contr.Idx) :
    (dot_S1024x1024_S1024x3072_S1024x3072_1_0_0_1_n_n.rhsIdx i q 1).val = (i 1).val := by
  unfold DotDims.rhsIdx
  rw [dif_neg (show ¬(1 : Fin S1024x3072.rank) ∈ dot_S1024x1024_S1024x3072_S1024x3072_1_0_0_1_n_n.rhsBatch by decide),
    dif_pos (show (1 : Fin S1024x3072.rank) ∈ dot_S1024x1024_S1024x3072_S1024x3072_1_0_0_1_n_n.rhsNonContracting by decide)]
  rfl

/-! ## The whole projection of the block, before it is cut into three -/

/-- Entry (p, n) of x · W + b over all 3072 columns: row p of the block against column n of the weights, plus the
    bias at n.  The sum over the contraction shape's one axis is re-indexed by that axis's coordinate; the bias row,
    a [3072] vector read as [1, 3072] and repeated down the rows, is read at n whatever the row p. -/
theorem pay_all (x0 : Vec Ideal S1024x1024 .f32) (x1 : Vec Ideal S1024x3072 .f32) (x2 : Vec Ideal S3072 .f32)
    (p : Fin 1024) (n : Fin 3072) :
    (k0_pay1 (F := Ideal) x0 x1 x2 : S1024x3072.Idx → EReal) (ix2 p n)
      = proj (fun j => (x0 : S1024x1024.Idx → EReal) (ix2 p j)) (fun j => (x1 : S1024x3072.Idx → EReal) (ix2 j n))
          ((x2 : S3072.Idx → EReal) (ix1 n)) := by
  unfold k0_pay1 proj
  rw [addf_apply, shapeCast_self]
  refine congrArg₂ (· + ·) ?_ ?_
  · refine (Ideal.matmul_constant_zero_apply dot_S1024x1024_S1024x3072_S1024x3072_1_0_0_1_n_n none _ _ (ix2 p n)).trans ?_
    rw [← Equiv.sum_comp (contrEquiv1 dot_S1024x1024_S1024x3072_S1024x3072_1_0_0_1_n_n 1024 rfl rfl).symm]
    refine Finset.sum_congr rfl fun k _ => ?_
    have hk := contrEquiv1_symm_val dot_S1024x1024_S1024x3072_S1024x3072_1_0_0_1_n_n 1024 rfl rfl k
    have el : dot_S1024x1024_S1024x3072_S1024x3072_1_0_0_1_n_n.lhsIdx (ix2 p n)
        ((contrEquiv1 dot_S1024x1024_S1024x3072_S1024x3072_1_0_0_1_n_n 1024 rfl rfl).symm k) = ix2 p k :=
      funext fun a => Fin.ext (by
        match a with
        | ⟨0, _⟩ => exact lhs_row _ _
        | ⟨1, _⟩ => exact (lhs_contr _ _).trans hk)
    have er : dot_S1024x1024_S1024x3072_S1024x3072_1_0_0_1_n_n.rhsIdx (ix2 p n)
        ((contrEquiv1 dot_S1024x1024_S1024x3072_S1024x3072_1_0_0_1_n_n 1024 rfl rfl).symm k) = ix2 k n :=
      funext fun a => Fin.ext (by
        match a with
        | ⟨0, _⟩ => exact (rhs_contr _ _).trans hk
        | ⟨1, _⟩ => exact rhs_col _ _)
    rw [el, er]
    rfl
  · rw [broadcastTo_1b_ab_apply, shapeCast_a_1a_apply]

/-! ## The three column ranges -/

/-- The query block: columns [0, 1024) of the projection, each entry times the scale word. -/
theorem pay_q (x0 : Vec Ideal S1024x1024 .f32) (x1 : Vec Ideal S1024x3072 .f32) (x2 : Vec Ideal S3072 .f32) (p d : Fin 1024) :
    (k0_pay2 (F := Ideal) x0 x1 x2 : S1024x1024.Idx → EReal) (ix2 p d)
      = proj (fun j => (x0 : S1024x1024.Idx → EReal) (ix2 p j)) (fun j => (x1 : S1024x3072.Idx → EReal) (ix2 j (col 0 (by norm_num) d))) ((x2 : S3072.Idx → EReal) (ix1 (col 0 (by norm_num) d))) * cScale := by
  unfold k0_pay2
  rw [truncf_apply, mulf_apply, broadcast_apply]
  refine congrArg₂ (· * ·) ?_ rfl
  refine (slice2_axis1_apply 0 _ _ p d (col 0 (by norm_num) d) rfl).trans ?_
  exact pay_all x0 x1 x2 p _

/-- The key block: columns [1024, 2048) of the projection. -/
theorem pay_k (x0 : Vec Ideal S1024x1024 .f32) (x1 : Vec Ideal S1024x3072 .f32) (x2 : Vec Ideal S3072 .f32) (p d : Fin 1024) :
    (k0_pay3 (F := Ideal) x0 x1 x2 : S1024x1024.Idx → EReal) (ix2 p d)
      = proj (fun j => (x0 : S1024x1024.Idx → EReal) (ix2 p j)) (fun j => (x1 : S1024x3072.Idx → EReal) (ix2 j (col 1024 (by norm_num) d))) ((x2 : S3072.Idx → EReal) (ix1 (col 1024 (by norm_num) d))) := by
  unfold k0_pay3
  rw [truncf_apply]
  refine (slice2_axis1_apply 1024 _ _ p d (col 1024 (by norm_num) d) rfl).trans ?_
  exact pay_all x0 x1 x2 p _

/-- The value block: columns [2048, 3072) of the projection. -/
theorem pay_v (x0 : Vec Ideal S1024x1024 .f32) (x1 : Vec Ideal S1024x3072 .f32) (x2 : Vec Ideal S3072 .f32) (p d : Fin 1024) :
    (k0_pay4 (F := Ideal) x0 x1 x2 : S1024x1024.Idx → EReal) (ix2 p d)
      = proj (fun j => (x0 : S1024x1024.Idx → EReal) (ix2 p j)) (fun j => (x1 : S1024x3072.Idx → EReal) (ix2 j (col 2048 (by norm_num) d))) ((x2 : S3072.Idx → EReal) (ix1 (col 2048 (by norm_num) d))) := by
  unfold k0_pay4
  rw [truncf_apply]
  refine (slice2_axis1_apply 2048 _ _ p d (col 2048 (by norm_num) d) rfl).trans ?_
  exact pay_all x0 x1 x2 p _

end Cert.KernelIdeal.Region0

end
-- ==== Proof.Region0Blocks.lean ====
/-
  From blocks to arrays, for the projection kernel.

  The kernel runs on a grid of 8 points; point t holds rows 1024 t … 1024 t + 1023 of the [8192,1024] input matrix, the
  whole weight matrix and the whole bias vector, and writes rows 1024 t … 1024 t + 1023 of each of the three output
  matrices.  Given, as a hypothesis, that a point's stored value at block coordinate (p, d) is a projection entry of the
  point's blocks — row p of the input block against column o + d of the weights, plus the bias at o + d, the query's
  also times the scale word —, each output ARRAY after the run is that same entry of the whole arrays: the index maps'
  values are decided once over the grid, a block's coordinate in the array is index × size + the coordinate inside the
  block, row r lies in the block of point r / 1024, and every point writes its block back.
-/
import proofs.«112890_j41695542509961_2_alg».proof.Proof.Gen.KernelIdeal.Frame
import proofs.«112890_j41695542509961_2_alg».proof.Proof.Spec
import Idealize.ShloMosaic.Lib.Pipeline.Value
import Idealize.ShloMosaic.Lib.ValueIdx
import Idealize.ShloMosaic.Lib.ValueLayout

noncomputable section

namespace Cert.KernelIdeal.Region0Blocks

open Cert.KernelIdeal Cert.KernelIdeal.Gen Cert.Attn Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-! ## The index maps over the grid, and the input blocks as parts of their arrays -/

/-- Zero offsets, however spelt. -/
theorem zero_off2 : (![0, 0] : Fin 2 → Nat) = fun _ => 0 := funext fun a => by fin_cases a <;> rfl
theorem zero_off1 : (![0] : Fin 1 → Nat) = fun _ => 0 := funext fun a => by fin_cases a <;> rfl

/-- The index maps' values at every grid point: the row-blocked windows 0, 3, 4, 5 are at block (t, 0); the weights' and
    the bias' windows stay at block 0. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The input window's block at point t is rows 1024 t … 1024 t + 1023 of the matrix. -/
theorem iblk_x_apply (c : Dev nD) (t : Fin cfg0.N) (x : S1024x1024.Idx) (k : S8192x1024.Idx)
    (hk0 : (k 0).val = 1024 * t.val + (x 0).val) (hk1 : (k 1).val = (x 1).val) :
    (iblk0 V c 0 t : Vec Ideal S1024x1024 .f32) x = (V c main_call0_v0 : S8192x1024.Idx → EReal) k := by
  obtain ⟨e00, e01, -⟩ := index_maps t
  unfold iblk0
  rw [View.read_apply]
  show V c main_call0_v0 _ = V c main_call0_v0 _
  congr 1
  funext a
  apply Fin.ext
  match a with
  | ⟨0, _⟩ => show win0_0.index t 0 * 1024 + 1 * (x 0).val = (k 0).val; rw [e00, hk0]; omega
  | ⟨1, _⟩ => show win0_0.index t 1 * 1024 + 1 * (x 1).val = (k 1).val; rw [e01, hk1]; omega

/-- The weights' window is the whole weight matrix at every point. -/
theorem iblk_w_eq (c : Dev nD) (t : Fin cfg0.N) :
    (iblk0 V c 1 t : Vec Ideal S1024x3072 .f32) = (V c main_arg2 : S1024x3072.Idx → EReal) := by
  obtain ⟨-, -, e10, e11, -⟩ := index_maps t
  funext x
  unfold iblk0
  rw [View.read_apply]
  show V c main_arg2 _ = V c main_arg2 _
  congr 1
  funext a
  apply Fin.ext
  match a with
  | ⟨0, _⟩ => show win0_1.index t 0 * 1024 + 1 * (x 0).val = (x 0).val; rw [e10]; omega
  | ⟨1, _⟩ => show win0_1.index t 1 * 3072 + 1 * (x 1).val = (x 1).val; rw [e11]; omega

/-- The bias' window is the whole bias vector at every point. -/
theorem iblk_b_eq (c : Dev nD) (t : Fin cfg0.N) :
    (iblk0 V c 2 t : Vec Ideal S3072 .f32) = (V c main_arg3 : S3072.Idx → EReal) := by
  obtain ⟨-, -, -, -, e20, -⟩ := index_maps t
  funext x
  unfold iblk0
  rw [View.read_apply]
  show V c main_arg3 _ = V c main_arg3 _
  congr 1
  funext a
  apply Fin.ext
  match a with
  | ⟨0, _⟩ => show win0_2.index t 0 * 3072 + 1 * (x 0).val = (x 0).val; rw [e20]; omega

/-- Entry (r, d) of the projected matrix at the columns o … o + 1023, passed through f. -/
def entry (f : EReal → EReal) (o : Nat) (ho : o + 1024 ≤ 3072) (X : S8192x1024.Idx → EReal) (W : S1024x3072.Idx → EReal)
    (B : S3072.Idx → EReal) (r : Fin 8192) (d : Fin 1024) : EReal :=
  f (proj (fun j => X (ix2 r j)) (fun j => W (ix2 j (col o ho d))) (B (ix1 (col o ho d))))

/-- The whole output array as one function of the three argument arrays. -/
def G (f : EReal → EReal) (o : Nat) (ho : o + 1024 ≤ 3072) (X : S8192x1024.Idx → EReal) (W : S1024x3072.Idx → EReal)
    (B : S3072.Idx → EReal) : S8192x1024.Idx → EReal :=
  fun i => entry f o ho X W B (i 0) (i 1)

/-- A payload that is a projection entry of its blocks, over blocks that are rows 1024 tv … of X, all of W and all of B,
    is at block coordinate y the array function at the coordinate 1024 tv + y 0, y 1. -/
theorem block_entry (pay : Vec Ideal S1024x1024 .f32 → Vec Ideal S1024x3072 .f32 → Vec Ideal S3072 .f32 → S1024x1024.Idx → EReal)
    (f : EReal → EReal) (o : Nat) (ho : o + 1024 ≤ 3072)
    (hpay : ∀ (x0 : Vec Ideal S1024x1024 .f32) (x1 : Vec Ideal S1024x3072 .f32) (x2 : Vec Ideal S3072 .f32) (p d : Fin 1024),
      pay x0 x1 x2 (ix2 p d) = f (proj (fun j => (x0 : S1024x1024.Idx → EReal) (ix2 p j))
        (fun j => (x1 : S1024x3072.Idx → EReal) (ix2 j (col o ho d))) ((x2 : S3072.Idx → EReal) (ix1 (col o ho d)))))
    (X : S8192x1024.Idx → EReal) (W : S1024x3072.Idx → EReal) (B : S3072.Idx → EReal)
    (x0 : Vec Ideal S1024x1024 .f32) (x1 : Vec Ideal S1024x3072 .f32) (x2 : Vec Ideal S3072 .f32) (tv : Nat)
    (h0 : ∀ (x : S1024x1024.Idx) (k : S8192x1024.Idx), (k 0).val = 1024 * tv + (x 0).val → (k 1).val = (x 1).val → x0 x = X k)
    (h1 : x1 = W) (h2 : x2 = B)
    (y : S1024x1024.Idx) (k : S8192x1024.Idx) (hk0 : (k 0).val = 1024 * tv + (y 0).val) (hk1 : (k 1).val = (y 1).val) :
    pay x0 x1 x2 y = G f o ho X W B k := by
  subst h1 h2
  obtain ⟨p, d, rfl⟩ : ∃ p d, y = ix2 p d := ⟨y 0, y 1, eq_ix2 y⟩
  obtain ⟨r, d', rfl⟩ : ∃ r d', k = ix2 r d' := ⟨k 0, k 1, eq_ix2 k⟩
  have hd : d' = d := Fin.ext hk1
  subst hd
  rw [hpay]
  show f (proj (fun j => x0 (ix2 p j)) (fun j => x1 (ix2 j (col o ho d'))) (x2 (ix1 (col o ho d'))))
    = f (proj (fun j => X (ix2 r j)) (fun j => x1 (ix2 j (col o ho d'))) (x2 (ix1 (col o ho d'))))
  have hrow : (fun j => x0 (ix2 p j)) = fun j : Fin 1024 => X (ix2 r j) :=
    funext fun j => h0 (ix2 p j) (ix2 r j) hk0 rfl
  rw [hrow]

/-! ## Output window 3: the scaled query -/

/-- What point t writes back to window 3's array is block t of the array function. -/
theorem q_block_written (f : EReal → EReal) (o : Nat) (ho : o + 1024 ≤ 3072)
    (hpay : ∀ (x0 : Vec Ideal S1024x1024 .f32) (x1 : Vec Ideal S1024x3072 .f32) (x2 : Vec Ideal S3072 .f32) (p d : Fin 1024),
      (k0_pay2 (F := Ideal) x0 x1 x2 : S1024x1024.Idx → EReal) (ix2 p d) = f (proj (fun j => (x0 : S1024x1024.Idx → EReal) (ix2 p j))
        (fun j => (x1 : S1024x3072.Idx → EReal) (ix2 j (col o ho d))) ((x2 : S3072.Idx → EReal) (ix1 (col o ho d)))))
    (c : Dev nD) (t : Fin cfg0.N) :
    (dat0 (F := Ideal) V c).flushed 3 t
      = ((cfg0.win 3).blk t).view.read (Elt Ideal) (G f o ho (V c main_call0_v0) (V c main_arg2) (V c main_arg3)) := by
  show (cfg0.win 3).cut (grid0.coords t) ((dat0 (F := Ideal) V c).after 3 t) = _
  rw [after0_3]
  unfold out0_3
  rw [View.canon_unit_zero zero_off2]
  simp only [View.ld_unit_zero (S := S1024x1024) zero_off2, View.ld_unit_zero (S := S1024x3072) zero_off2, View.ld_unit_zero (S := S3072) zero_off1]
  obtain ⟨-, -, -, -, -, e0, e1, -⟩ := index_maps t
  funext y
  show k0_pay2 (F := Ideal) (iblk0 V c 0 t) (iblk0 V c 1 t) (iblk0 V c 2 t) y
    = G f o ho (V c main_call0_v0) (V c main_arg2) (V c main_arg3) (((cfg0.win 3).blk t).view.emb y)
  refine block_entry (k0_pay2 (F := Ideal)) f o ho hpay (V c main_call0_v0) (V c main_arg2) (V c main_arg3)
    (iblk0 V c 0 t) (iblk0 V c 1 t) (iblk0 V c 2 t) t.val (fun x k h0 h1 => iblk_x_apply V c t x k h0 h1)
    (iblk_w_eq V c t) (iblk_b_eq V c t) y _ ?_ ?_
  · show win0_3.index t 0 * 1024 + 1 * (y 0).val = 1024 * t.val + (y 0).val
    rw [e0]; omega
  · show win0_3.index t 1 * 1024 + 1 * (y 1).val = (y 1).val
    rw [e1]; omega

/-- An index of the array is in point t's block iff each coordinate is in the block's range on its axis. -/
theorem mem_q_block (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_call0_v1_0).slice (win0_3.rect t)).set ↔ _
  rw [View.set_slice_whole, Rect.mem_set_unit]
  exact Iff.rfl

/-- Row r is in the block of point r / 1024, and every point writes its block back. -/
theorem q_rows_covered (i : S8192x1024.Idx) :
    ∃ t : Fin cfg0.N, (cfg0.win 3).flush t = true ∧ i ∈ ((cfg0.win 3).blk t).view.set := by
  have hi0 : (i 0).val < 8192 := idx2_lt0 i
  have hi1 : (i 1).val < 1024 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, e0, e1, -⟩ := index_maps t
  refine ⟨t, flush0_3 t, ?_⟩
  rw [mem_q_block]
  intro a
  match a with
  | ⟨0, _⟩ =>
    show win0_3.index t 0 * 1024 ≤ (i 0).val ∧ (i 0).val < win0_3.index t 0 * 1024 + 1024
    rw [e0, ht]; omega
  | ⟨1, _⟩ =>
    show win0_3.index t 1 * 1024 ≤ (i 1).val ∧ (i 1).val < win0_3.index t 1 * 1024 + 1024
    rw [e1]; omega

/-- The array after the run is the array function. -/
theorem q_array (f : EReal → EReal) (o : Nat) (ho : o + 1024 ≤ 3072)
    (hpay : ∀ (x0 : Vec Ideal S1024x1024 .f32) (x1 : Vec Ideal S1024x3072 .f32) (x2 : Vec Ideal S3072 .f32) (p d : Fin 1024),
      (k0_pay2 (F := Ideal) x0 x1 x2 : S1024x1024.Idx → EReal) (ix2 p d) = f (proj (fun j => (x0 : S1024x1024.Idx → EReal) (ix2 p j))
        (fun j => (x1 : S1024x3072.Idx → EReal) (ix2 j (col o ho d))) ((x2 : S3072.Idx → EReal) (ix1 (col o ho d)))))
    (c : Dev nD) :
    (dat0 (F := Ideal) V c).arrAt 3 cfg0.N = G f o ho (V c main_call0_v0) (V c main_arg2) (V c main_arg3) :=
  (dat0 (F := Ideal) V c).arrAt_eq_of_cover 3 (G f o ho (V c main_call0_v0) (V c main_arg2) (V c main_arg3))
    (fun t _ => q_block_written V f o ho hpay c t) q_rows_covered

theorem arr_q_of (hpay : (∀ (x0 : Vec Ideal S1024x1024 .f32) (x1 : Vec Ideal S1024x3072 .f32) (x2 : Vec Ideal S3072 .f32) (p d : Fin 1024),
        (k0_pay2 (F := Ideal) x0 x1 x2 : S1024x1024.Idx → EReal) (ix2 p d)
          = proj (fun j => (x0 : S1024x1024.Idx → EReal) (ix2 p j)) (fun j => (x1 : S1024x3072.Idx → EReal) (ix2 j (col 0 (by norm_num) d))) ((x2 : S3072.Idx → EReal) (ix1 (col 0 (by norm_num) d))) * cScale)) (c : Dev nD) (r : Fin 8192) (d : Fin 1024) :
      ((dat0 (F := Ideal) V c).arrAt 3 cfg0.N : S8192x1024.Idx → EReal) (ix2 r d)
        = proj (fun j => (V c main_call0_v0 : S8192x1024.Idx → EReal) (ix2 r j))
               (fun j => (V c main_arg2 : S1024x3072.Idx → EReal) (ix2 j (col 0 (by norm_num) d)))
               ((V c main_arg3 : S3072.Idx → EReal) (ix1 (col 0 (by norm_num) d))) * cScale :=
  congrFun (q_array V (fun z => z * cScale) 0 (by norm_num) hpay c) (ix2 r d)

/-! ## Output window 4: the key -/

/-- What point t writes back to window 4's array is block t of the array function. -/
theorem k_block_written (f : EReal → EReal) (o : Nat) (ho : o + 1024 ≤ 3072)
    (hpay : ∀ (x0 : Vec Ideal S1024x1024 .f32) (x1 : Vec Ideal S1024x3072 .f32) (x2 : Vec Ideal S3072 .f32) (p d : Fin 1024),
      (k0_pay3 (F := Ideal) x0 x1 x2 : S1024x1024.Idx → EReal) (ix2 p d) = f (proj (fun j => (x0 : S1024x1024.Idx → EReal) (ix2 p j))
        (fun j => (x1 : S1024x3072.Idx → EReal) (ix2 j (col o ho d))) ((x2 : S3072.Idx → EReal) (ix1 (col o ho d)))))
    (c : Dev nD) (t : Fin cfg0.N) :
    (dat0 (F := Ideal) V c).flushed 4 t
      = ((cfg0.win 4).blk t).view.read (Elt Ideal) (G f o ho (V c main_call0_v0) (V c main_arg2) (V c main_arg3)) := by
  show (cfg0.win 4).cut (grid0.coords t) ((dat0 (F := Ideal) V c).after 4 t) = _
  rw [after0_4]
  unfold out0_4
  rw [View.canon_unit_zero zero_off2]
  simp only [View.ld_unit_zero (S := S1024x1024) zero_off2, View.ld_unit_zero (S := S1024x3072) zero_off2, View.ld_unit_zero (S := S3072) zero_off1]
  obtain ⟨-, -, -, -, -, -, -, e0, e1, -⟩ := index_maps t
  funext y
  show k0_pay3 (F := Ideal) (iblk0 V c 0 t) (iblk0 V c 1 t) (iblk0 V c 2 t) y
    = G f o ho (V c main_call0_v0) (V c main_arg2) (V c main_arg3) (((cfg0.win 4).blk t).view.emb y)
  refine block_entry (k0_pay3 (F := Ideal)) f o ho hpay (V c main_call0_v0) (V c main_arg2) (V c main_arg3)
    (iblk0 V c 0 t) (iblk0 V c 1 t) (iblk0 V c 2 t) t.val (fun x k h0 h1 => iblk_x_apply V c t x k h0 h1)
    (iblk_w_eq V c t) (iblk_b_eq V c t) y _ ?_ ?_
  · show win0_4.index t 0 * 1024 + 1 * (y 0).val = 1024 * t.val + (y 0).val
    rw [e0]; omega
  · show win0_4.index t 1 * 1024 + 1 * (y 1).val = (y 1).val
    rw [e1]; omega

/-- An index of the array is in point t's block iff each coordinate is in the block's range on its axis. -/
theorem mem_k_block (t : Fin cfg0.N) (i : S8192x1024.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_call0_v1_1).slice (win0_4.rect t)).set ↔ _
  rw [View.set_slice_whole, Rect.mem_set_unit]
  exact Iff.rfl

/-- Row r is in the block of point r / 1024, and every point writes its block back. -/
theorem k_rows_covered (i : S8192x1024.Idx) :
    ∃ t : Fin cfg0.N, (cfg0.win 4).flush t = true ∧ i ∈ ((cfg0.win 4).blk t).view.set := by
  have hi0 : (i 0).val < 8192 := idx2_lt0 i
  have hi1 : (i 1).val < 1024 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, e0, e1, -⟩ := index_maps t
  refine ⟨t, flush0_4 t, ?_⟩
  rw [mem_k_block]
  intro a
  match a with
  | ⟨0, _⟩ =>
    show win0_4.index t 0 * 1024 ≤ (i 0).val ∧ (i 0).val < win0_4.index t 0 * 1024 + 1024
    rw [e0, ht]; omega
  | ⟨1, _⟩ =>
    show win0_4.index t 1 * 1024 ≤ (i 1).val ∧ (i 1).val < win0_4.index t 1 * 1024 + 1024
    rw [e1]; omega

/-- The array after the run is the array function. -/
theorem k_array (f : EReal → EReal) (o : Nat) (ho : o + 1024 ≤ 3072)
    (hpay : ∀ (x0 : Vec Ideal S1024x1024 .f32) (x1 : Vec Ideal S1024x3072 .f32) (x2 : Vec Ideal S3072 .f32) (p d : Fin 1024),
      (k0_pay3 (F := Ideal) x0 x1 x2 : S1024x1024.Idx → EReal) (ix2 p d) = f (proj (fun j => (x0 : S1024x1024.Idx → EReal) (ix2 p j))
        (fun j => (x1 : S1024x3072.Idx → EReal) (ix2 j (col o ho d))) ((x2 : S3072.Idx → EReal) (ix1 (col o ho d)))))
    (c : Dev nD) :
    (dat0 (F := Ideal) V c).arrAt 4 cfg0.N = G f o ho (V c main_call0_v0) (V c main_arg2) (V c main_arg3) :=
  (dat0 (F := Ideal) V c).arrAt_eq_of_cover 4 (G f o ho (V c main_call0_v0) (V c main_arg2) (V c main_arg3))
    (fun t _ => k_block_written V f o ho hpay c t) k_rows_covered

theorem arr_k_of (hpay : (∀ (x0 : Vec Ideal S1024x1024 .f32) (x1 : Vec Ideal S1024x3072 .f32) (x2 : Vec Ideal S3072 .f32) (p d : Fin 1024),
        (k0_pay3 (F := Ideal) x0 x1 x2 : S1024x1024.Idx → EReal) (ix2 p d)
          = proj (fun j => (x0 : S1024x1024.Idx → EReal) (ix2 p j)) (fun j => (x1 : S1024x3072.Idx → EReal) (ix2 j (col 1024 (by norm_num) d))) ((x2 : S3072.Idx → EReal) (ix1 (col 1024 (by norm_num) d))))) (c : Dev nD) (r : Fin 8192) (d : Fin 1024) :
      ((dat0 (F := Ideal) V c).arrAt 4 cfg0.N : S8192x1024.Idx → EReal) (ix2 r d)
        = proj (fun j => (V c main_call0_v0 : S8192x1024.Idx → EReal) (ix2 r j))
               (fun j => (V c main_arg2 : S1024x3072.Idx → EReal) (ix2 j (col 1024 (by norm_num) d)))
               ((V c main_arg3 : S3072.Idx → EReal) (ix1 (col 1024 (by norm_num) d))) :=
  congrFun (k_array V (fun z => z) 1024 (by norm_num) hpay c) (ix2 r d)

/-! ## Output window 5: the value -/

/-- What point t writes back to window 5's array is block t of the array function. -/
theorem v_block_written (f : EReal → EReal) (o : Nat) (ho : o + 1024 ≤ 3072)
    (hpay : ∀ (x0 : Vec Ideal S1024x1024 .f32) (x1 : Vec Ideal S1024x3072 .f32) (x2 : Vec Ideal S3072 .f32) (p d : Fin 1024),
      (k0_pay4 (F := Ideal) x0 x1 x2 : S1024x1024.Idx → EReal) (ix2 p d) = f (proj (fun j => (x0 : S1024x1024.Idx → EReal) (ix2 p j))
        (fun j => (x1 : S1024x3072.Idx → EReal) (ix2 j (col o ho d))) ((x2 : S3072.Idx → EReal) (ix1 (col o ho d)))))
    (c : Dev nD) (t : Fin cfg0.N) :
    (dat0 (F := Ideal) V c).flushed 5 t
      = ((cfg0.win 5).blk t).view.read (Elt Ideal) (G f o ho (V c main_call0_v0) (V c main_arg2) (V c main_arg3)) := by
  show (cfg0.win 5).cut (grid0.coords t) ((dat0 (F := Ideal) V c).after 5 t) = _
  rw [after0_5]
  unfold out0_5
  rw [View.canon_unit_zero zero_off2]
  simp only [View.ld_unit_zero (S := S1024x1024) zero_off2, View.ld_unit_zero (S := S1024x3072) zero_off2, View.ld_unit_zero (S := S3072) zero_off1]
  obtain ⟨-, -, -, -, -, -, -, -, -, e0, e1⟩ := index_maps t
  funext y
  show k0_pay4 (F := Ideal) (iblk0 V c 0 t) (iblk0 V c 1 t) (iblk0 V c 2 t) y
    = G f o ho (V c main_call0_v0) (V c main_arg2) (V c main_arg3) (((cfg0.win 5).blk t).view.emb y)
  refine block_entry (k0_pay4 (F := Ideal)) f o ho hpay (V c main_call0_v0) (V c main_arg2) (V c main_arg3)
    (iblk0 V c 0 t) (iblk0 V c 1 t) (iblk0 V c 2 t) t.val (fun x k h0 h1 => iblk_x_apply V c t x k h0 h1)
    (iblk_w_eq V c t) (iblk_b_eq V c t) y _ ?_ ?_
  · show win0_5.index t 0 * 1024 + 1 * (y 0).val = 1024 * t.val + (y 0).val
    rw [e0]; omega
  · show win0_5.index t 1 * 1024 + 1 * (y 1).val = (y 1).val
    rw [e1]; omega

/-- An index of the array is in point t's block iff each coordinate is in the block's range on its axis. -/
theorem mem_v_block (t : Fin cfg0.N) (i : S8192x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_call0_v1_2).slice (win0_5.rect t)).set ↔ _
  rw [View.set_slice_whole, Rect.mem_set_unit]
  exact Iff.rfl

/-- Row r is in the block of point r / 1024, and every point writes its block back. -/
theorem v_rows_covered (i : S8192x1024.Idx) :
    ∃ t : Fin cfg0.N, (cfg0.win 5).flush t = true ∧ i ∈ ((cfg0.win 5).blk t).view.set := by
  have hi0 : (i 0).val < 8192 := idx2_lt0 i
  have hi1 : (i 1).val < 1024 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, -, e0, e1⟩ := index_maps t
  refine ⟨t, flush0_5 t, ?_⟩
  rw [mem_v_block]
  intro a
  match a with
  | ⟨0, _⟩ =>
    show win0_5.index t 0 * 1024 ≤ (i 0).val ∧ (i 0).val < win0_5.index t 0 * 1024 + 1024
    rw [e0, ht]; omega
  | ⟨1, _⟩ =>
    show win0_5.index t 1 * 1024 ≤ (i 1).val ∧ (i 1).val < win0_5.index t 1 * 1024 + 1024
    rw [e1]; omega

/-- The array after the run is the array function. -/
theorem v_array (f : EReal → EReal) (o : Nat) (ho : o + 1024 ≤ 3072)
    (hpay : ∀ (x0 : Vec Ideal S1024x1024 .f32) (x1 : Vec Ideal S1024x3072 .f32) (x2 : Vec Ideal S3072 .f32) (p d : Fin 1024),
      (k0_pay4 (F := Ideal) x0 x1 x2 : S1024x1024.Idx → EReal) (ix2 p d) = f (proj (fun j => (x0 : S1024x1024.Idx → EReal) (ix2 p j))
        (fun j => (x1 : S1024x3072.Idx → EReal) (ix2 j (col o ho d))) ((x2 : S3072.Idx → EReal) (ix1 (col o ho d)))))
    (c : Dev nD) :
    (dat0 (F := Ideal) V c).arrAt 5 cfg0.N = G f o ho (V c main_call0_v0) (V c main_arg2) (V c main_arg3) :=
  (dat0 (F := Ideal) V c).arrAt_eq_of_cover 5 (G f o ho (V c main_call0_v0) (V c main_arg2) (V c main_arg3))
    (fun t _ => v_block_written V f o ho hpay c t) v_rows_covered

theorem arr_v_of (hpay : (∀ (x0 : Vec Ideal S1024x1024 .f32) (x1 : Vec Ideal S1024x3072 .f32) (x2 : Vec Ideal S3072 .f32) (p d : Fin 1024),
        (k0_pay4 (F := Ideal) x0 x1 x2 : S1024x1024.Idx → EReal) (ix2 p d)
          = proj (fun j => (x0 : S1024x1024.Idx → EReal) (ix2 p j)) (fun j => (x1 : S1024x3072.Idx → EReal) (ix2 j (col 2048 (by norm_num) d))) ((x2 : S3072.Idx → EReal) (ix1 (col 2048 (by norm_num) d))))) (c : Dev nD) (r : Fin 8192) (d : Fin 1024) :
      ((dat0 (F := Ideal) V c).arrAt 5 cfg0.N : S8192x1024.Idx → EReal) (ix2 r d)
        = proj (fun j => (V c main_call0_v0 : S8192x1024.Idx → EReal) (ix2 r j))
               (fun j => (V c main_arg2 : S1024x3072.Idx → EReal) (ix2 j (col 2048 (by norm_num) d)))
               ((V c main_arg3 : S3072.Idx → EReal) (ix1 (col 2048 (by norm_num) d))) :=
  congrFun (v_array V (fun z => z) 2048 (by norm_num) hpay c) (ix2 r d)

end Cert.KernelIdeal.Region0Blocks

end
-- ==== Proof.Region1.lean ====
import proofs.«112890_j41695542509961_2_alg».proof.Proof.Gen.KernelIdeal.Frame
import proofs.«112890_j41695542509961_2_alg».proof.Proof.Spec
import Idealize.ShloMosaic.Lib.Pipeline.Value
import Idealize.ShloMosaic.Lib.ValueIdx
import Idealize.ShloMosaic.Lib.ValueLayout
import Idealize.ShloMosaic.PureOps.Ideal.Laws

/-
  The attention kernel's stored value, read at one entry.

  The body stores ONE vector. With S the block of scores (query rows against key rows, plus the mask's penalty), m the
  row maxima of S, E = exp (S - m) and l the row sums of E, the stored entry (p, h) is (∑ k, E p k * v k h) / l p:
  that is outK of row p of the scores and column h of the values.
-/

noncomputable section

namespace Cert.KernelIdeal.Region1

open Cert.KernelIdeal Cert.KernelIdeal.Gen Cert.Attn Idealize.ShloMosaic Idealize.ShloMosaic.ValueIdx

/-! ## Two layout operations on a column: a vector cast to a column, a column broadcast along rows -/

section Layout
variable {α : Type}

/-- A vector [a] cast to a column [a, 1] reads, at (i, u), the operand at i: both sit at row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two products: a sum over the one contracted axis -/

theorem lhs_qk_0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem lhs_qk_1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem rhs_qk_0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem rhs_qk_1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- Query rows against key rows (both last axes contracted), into the zero splat: entry (p, k) is ∑ d, q p d * kk k d. -/
theorem qk_apply (q : FVec Ideal S512x1024 .bf16) (kk : FVec Ideal S2048x1024 .bf16) (p : Fin 512) (k : Fin 2048) :
    matmul dot_S512x1024_S2048x1024_S512x2048_1_1_0_0_n_n none q kk (constant (F := Ideal) S512x2048 .f32 0x00000000#32) (ix2 p k)
      = ∑ d : Fin 1024, q (ix2 p d) * kk (ix2 k d) := by
  simp only [matmul]
  rw [Ideal.matmul_constant_zero_apply, ← Equiv.sum_comp (contrEquiv1 dot_S512x1024_S2048x1024_S512x2048_1_1_0_0_n_n 1024 rfl rfl).symm]
  refine Finset.sum_congr rfl fun d _ => ?_
  have hk := contrEquiv1_symm_val dot_S512x1024_S2048x1024_S512x2048_1_1_0_0_n_n 1024 rfl rfl d
  have el : dot_S512x1024_S2048x1024_S512x2048_1_1_0_0_n_n.lhsIdx (ix2 p k) ((contrEquiv1 dot_S512x1024_S2048x1024_S512x2048_1_1_0_0_n_n 1024 rfl rfl).symm d) = ix2 p d := funext fun a => Fin.ext (by
    match a with
    | ⟨0, _⟩ => exact lhs_qk_0 _ _
    | ⟨1, _⟩ => exact (lhs_qk_1 _ _).trans hk)
  have er : dot_S512x1024_S2048x1024_S512x2048_1_1_0_0_n_n.rhsIdx (ix2 p k) ((contrEquiv1 dot_S512x1024_S2048x1024_S512x2048_1_1_0_0_n_n 1024 rfl rfl).symm d) = ix2 k d := funext fun a => Fin.ext (by
    match a with
    | ⟨0, _⟩ => exact rhs_qk_0 _ _
    | ⟨1, _⟩ => exact (rhs_qk_1 _ _).trans hk)
  rw [el, er]

theorem lhs_ev_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_ev_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem rhs_ev_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem rhs_ev_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- Weights against values (the weights' last axis against the values' first), into the zero splat: entry (p, h) is
    ∑ k, e p k * vv k h. -/
theorem ev_apply (e : FVec Ideal S512x2048 .bf16) (vv : FVec Ideal S2048x1024 .bf16) (p : Fin 512) (h : Fin 1024) :
    matmul dot_S512x2048_S2048x1024_S512x1024_1_0_0_1_n_n none e vv (constant (F := Ideal) S512x1024 .f32 0x00000000#32) (ix2 p h)
      = ∑ k : Fin 2048, e (ix2 p k) * vv (ix2 k h) := by
  simp only [matmul]
  rw [Ideal.matmul_constant_zero_apply, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p h) ((contrEquiv1 dot_S512x2048_S2048x1024_S512x1024_1_0_0_1_n_n 2048 rfl rfl).symm k) = ix2 p k := funext fun a => Fin.ext (by
    match a with
    | ⟨0, _⟩ => exact lhs_ev_0 _ _
    | ⟨1, _⟩ => exact (lhs_ev_1 _ _).trans hk)
  have er : dot_S512x2048_S2048x1024_S512x1024_1_0_0_1_n_n.rhsIdx (ix2 p h) ((contrEquiv1 dot_S512x2048_S2048x1024_S512x1024_1_0_0_1_n_n 2048 rfl rfl).symm k) = ix2 k h := funext fun a => Fin.ext (by
    match a with
    | ⟨0, _⟩ => exact (rhs_ev_0 _ _).trans hk
    | ⟨1, _⟩ => exact rhs_ev_1 _ _)
  rw [el, er]

/-! ## The two reductions along a row -/

/-- The row index p with the column k put back on the reduced axis is (p, k). -/
theorem lift_row (p : Fin 512) (k : Fin 2048) : reduces_S512x2048_S512.lift (ix1 p) k = ix2 p k :=
  funext fun a => Fin.ext (by match a with | ⟨0, _⟩ => rfl | ⟨1, _⟩ => rfl)

/-- The maximum along a row from the word of -∞ is rowMax of that row. -/
theorem rowMax_apply (S : FVec Ideal S512x2048 .f32) (p : Fin 512) :
    multiReduction .maximumf [1] S512 S 0xFF800000#32 reduces_S512x2048_S512 (.inl rfl) rfl (ix1 p)
      = rowMax (fun k => S (ix2 p k)) := by
  refine (Ideal.multiReduction_maximumf_single S 0xFF800000#32 reduces_S512x2048_S512 (.inl rfl) rfl (ix1 p)).trans ?_
  unfold rowMax
  have e : (S ∘ reduces_S512x2048_S512.lift (ix1 p)) = fun k : Fin 2048 => S (ix2 p k) :=
    funext fun k => congrArg S (lift_row p k)
  rw [e]
  rfl

/-- The sum along a row from the zero word is the sum over the row's columns. -/
theorem rowSum_apply (E : FVec Ideal S512x2048 .f32) (p : Fin 512) :
    multiReduction .add [1] S512 E 0x00000000#32 reduces_S512x2048_S512 (.inl rfl) rfl (ix1 p)
      = ∑ k : Fin 2048, E (ix2 p k) := by
  refine (Ideal.multiReduction_add_single E 0x00000000#32 reduces_S512x2048_S512 (.inl rfl) rfl (ix1 p)).trans ?_
  exact Finset.sum_congr rfl fun k _ => congrArg E (lift_row p k)

/-! ## The body's value, regrouped: the scores, the weights, the quotient -/

/-- The block of scores: query rows against key rows, plus the mask's penalty (1 - mask) * (-10000) on every row. -/
def scores (x0 : Vec Ideal S1x512x1024 .bf16) (x1 : Vec Ideal S1x2048x1024 .bf16) (x3 : Vec Ideal S1x1x2048 .f32) :
    FVec Ideal S512x2048 .f32 :=
  have q : FVec Ideal S512x1024 .bf16 := shapeCast S512x1024 x0 shapeCasts_S1x512x1024_S512x1024
  have kk : FVec Ideal S2048x1024 .bf16 := shapeCast S2048x1024 x1 shapeCasts_S1x2048x1024_S2048x1024
  have mk : FVec Ideal S1x2048 .f32 := shapeCast S1x2048 x3 shapeCasts_S1x1x2048_S1x2048
  have one : FVec Ideal S1x2048 .f32 := broadcast S1x2048 (Scalar.ofBits .f32 0x3F800000#32)
  have neg : FVec Ideal S1x2048 .f32 := broadcast S1x2048 (Scalar.ofBits .f32 0xC61C4000#32)
  addf (matmul dot_S512x1024_S2048x1024_S512x2048_1_1_0_0_n_n none q kk (constant S512x2048 .f32 0x00000000#32))
    (broadcastTo S512x2048 (mulf (subf one mk) neg) broadcasts_S1x2048_S512x2048)

/-- The weights: the exponential of a block of scores less its row maxima. -/
def weights (S : FVec Ideal S512x2048 .f32) : FVec Ideal S512x2048 .f32 :=
  exp (subf S (broadcastTo S512x2048 (shapeCast S512x1
    (multiReduction .maximumf [1] S512 S 0xFF800000#32 reduces_S512x2048_S512 (.inl rfl) rfl)
    shapeCasts_S512_S512x1) broadcasts_S512x1_S512x2048))

/-- The quotient: the weights against the values, divided by the weights' row sums. -/
def quotient (S : FVec Ideal S512x2048 .f32) (vv : FVec Ideal S2048x1024 .bf16) : FVec Ideal S512x1024 .f32 :=
  divf (matmul dot_S512x2048_S2048x1024_S512x1024_1_0_0_1_n_n none (truncf .bf16 (weights S) bitsLt_bf16_f32) vv (constant S512x1024 .f32 0x00000000#32))
    (broadcastTo S512x1024 (shapeCast S512x1
      (multiReduction .add [1] S512 (weights S) 0x00000000#32 reduces_S512x2048_S512 (.inl rfl) rfl)
      shapeCasts_S512_S512x1) broadcasts_S512x1_S512x1024)

/-- The stored vector is the quotient of the scores and the value block, with the unit axis put back. -/
theorem pay_eq (x0 : Vec Ideal S1x512x1024 .bf16) (x1 x2 : Vec Ideal S1x2048x1024 .bf16) (x3 : Vec Ideal S1x1x2048 .f32) :
    k1_pay1 (F := Ideal) x0 x1 x2 x3
      = shapeCast S1x512x1024 (quotient (scores x0 x1 x3) (shapeCast S2048x1024 x2 shapeCasts_S1x2048x1024_S2048x1024 : FVec Ideal S2048x1024 .bf16))
          shapeCasts_S512x1024_S1x512x1024 := rfl

/-- A score at (p, k): row p of the query block against row k of the key block, plus the penalty of the mask at k. -/
theorem scores_apply (x0 : Vec Ideal S1x512x1024 .bf16) (x1 : Vec Ideal S1x2048x1024 .bf16) (x3 : Vec Ideal S1x1x2048 .f32)
    (p : Fin 512) (k : Fin 2048) :
    scores x0 x1 x3 (ix2 p k)
      = score (fun d => (x0 : S1x512x1024.Idx → EReal) (ix3 0 p d)) (fun d => (x1 : S1x2048x1024.Idx → EReal) (ix3 0 k d))
          ((x3 : S1x1x2048.Idx → EReal) (ix3 0 0 k)) := by
  unfold scores score
  rw [addf_apply, qk_apply, broadcastTo_1b_ab_apply, mulf_apply, subf_apply, broadcast_apply, broadcast_apply,
    shapeCast_1ab_ab_apply]
  simp only [shapeCast_1ab_ab_apply]
  rfl

/-- A weight at (p, k): the exponential of the score less its row's maximum. -/
theorem weights_apply (S : FVec Ideal S512x2048 .f32) (p : Fin 512) (k : Fin 2048) :
    weights S (ix2 p k) = Ideal.exp (S (ix2 p k) - rowMax (fun k' => S (ix2 p k'))) := by
  have hm : broadcastTo S512x2048 (shapeCast S512x1
      (multiReduction .maximumf [1] S512 S 0xFF800000#32 reduces_S512x2048_S512 (.inl rfl) rfl)
      shapeCasts_S512_S512x1) broadcasts_S512x1_S512x2048 (ix2 p k) = rowMax (fun k' => S (ix2 p k')) := by
    rw [broadcastTo_a1_ab_apply, shapeCast_a_a1_apply, rowMax_apply]
  unfold weights
  exact congrArg (fun m => Ideal.exp (S (ix2 p k) - m)) hm

/-- The quotient at (p, h) is the kernel's arrangement of row p of the scores and column h of the values. -/
theorem quotient_apply (S : FVec Ideal S512x2048 .f32) (vv : FVec Ideal S2048x1024 .bf16) (p : Fin 512) (h : Fin 1024) :
    quotient S vv (ix2 p h) = outK (fun k => S (ix2 p k)) (fun k => vv (ix2 k h)) := by
  unfold quotient outK
  rw [divf_apply, ev_apply, broadcastTo_a1_ab_apply, shapeCast_a_a1_apply, rowSum_apply]
  simp only [truncf_apply, weights_apply]

/-- THE STORED VALUE at (0, p, h): the kernel's arrangement of query row p's scores and the values' column h. -/
theorem pay_at (x0 : Vec Ideal S1x512x1024 .bf16) (x1 x2 : Vec Ideal S1x2048x1024 .bf16) (x3 : Vec Ideal S1x1x2048 .f32)
    (p : Fin 512) (h : Fin 1024) :
    (k1_pay1 (F := Ideal) x0 x1 x2 x3 : S1x512x1024.Idx → EReal) (ix3 0 p h)
      = outK (fun k => score (fun d => (x0 : S1x512x1024.Idx → EReal) (ix3 0 p d))
                             (fun d => (x1 : S1x2048x1024.Idx → EReal) (ix3 0 k d))
                             ((x3 : S1x1x2048.Idx → EReal) (ix3 0 0 k)))
             (fun k => (x2 : S1x2048x1024.Idx → EReal) (ix3 0 k h)) := by
  rw [pay_eq, shapeCast_ab_1ab_apply, quotient_apply]
  simp only [scores_apply, shapeCast_1ab_ab_apply]

end Cert.KernelIdeal.Region1

end
-- ==== Proof.Region1Blocks.lean ====
/-
  Region 1 (the attention kernel, grid 4 x 4: batch b, query tile qi of 512 rows): from the blocks the grid points
  write back to the whole output array, entry by entry.

  The body's payload at an entry of its output block is TAKEN AS A HYPOTHESIS: entry (0, p, h) of the block is outK of
  the block's score row p (query block row p against every key block row, with the mask block's penalty) and column h of
  the value block. From it: at grid point t with coordinates (b, qi), the query and output windows' block is rows
  [512 qi, 512 qi + 512) of batch b of a [4, 2048, 1024] array, the key and value windows' block is all 2048 rows of
  batch b, the mask window's block is row b of a [4, 1, 2048] array (a block's coordinate is index x size + the
  coordinate inside the block; the index maps' values are decided over the sixteen points). So what point t writes back
  is block t of ONE function of the four input arrays, attnArr. Every row s of batch b lies in the block of the point
  (b, s / 512), every point writes back, hence the output array after the region is attnArr everywhere.
-/
import proofs.«112890_j41695542509961_2_alg».proof.Proof.Gen.KernelIdeal.Frame
import proofs.«112890_j41695542509961_2_alg».proof.Proof.Spec
import Idealize.ShloMosaic.Lib.Pipeline.Value
import Idealize.ShloMosaic.Lib.ValueIdx
import Idealize.ShloMosaic.Lib.ValueLayout

noncomputable section

namespace Cert.KernelIdeal.Region1Blocks

open Cert.KernelIdeal Cert.KernelIdeal.Gen Cert.Attn Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-block access, as the constant function. -/
theorem zero_offsets : (![0, 0, 0] : Fin 3 → Nat) = fun _ => 0 := funext fun a => by fin_cases a <;> rfl

/-- Entry (b, s, h) of the result as a function of the four input arrays: outK of score row (b, s) and column h of the values of batch b. -/
def attnAt (A2 A3 A4 : S4x2048x1024.Idx → EReal) (A5 : S4x1x2048.Idx → EReal) (b : Fin 4) (s : Fin 2048) (h : Fin 1024) : EReal :=
  outK (fun k => score (fun d => A2 (ix3 b s d)) (fun d => A3 (ix3 b k d)) (A5 (ix3 b 0 k))) (fun k => A4 (ix3 b k h))

/-- The whole output array as ONE function of the four input arrays, index by index. -/
def attnArr (A2 A3 A4 : S4x2048x1024.Idx → EReal) (A5 : S4x1x2048.Idx → EReal) : S4x2048x1024.Idx → EReal :=
  fun i => attnAt A2 A3 A4 A5 (i 0) (i 1) (i 2)

/-- The index maps, decided over the grid: the query window moves with the output window; the key, value and mask
    windows follow its batch coordinate and stay at 0 on the other axes; the output's block indices stay in range. -/
theorem block_indices : ∀ t : Fin cfg1.N,
    win1_0.index t (0 : Fin 3) = win1_4.index t (0 : Fin 3) ∧ win1_0.index t (1 : Fin 3) = win1_4.index t (1 : Fin 3) ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = 0 ∧ win1_3.index t (2 : Fin 3) = 0
    ∧ win1_4.index t (0 : Fin 3) ≤ 3 ∧ win1_4.index t (1 : Fin 3) ≤ 3 ∧ win1_4.index t (2 : Fin 3) = 0 :=
  (by decide +kernel : ∀ t : Fin grid1.N, _)

/-- Every (batch, query tile) pair is SOME point's output block. -/
theorem tile_has_point : ∀ (q0 : Fin 4) (q1 : Fin 4), ∃ t : Fin cfg1.N, win1_4.index t = ![q0.val, q1.val, 0] :=
  (by decide +kernel : ∀ (q0 : Fin 4) (q1 : Fin 4), ∃ t : Fin grid1.N, win1_4.index t = ![q0.val, q1.val, 0])

/-- The payload at ANY index of the output block (its first coordinate is the one value 0). -/
theorem payload_at
    (hpay : ∀ (x0 : Vec Ideal S1x512x1024 .bf16) (x1 x2 : Vec Ideal S1x2048x1024 .bf16) (x3 : Vec Ideal S1x1x2048 .f32) (p : Fin 512) (h : Fin 1024),
      (k1_pay1 (F := Ideal) x0 x1 x2 x3 : S1x512x1024.Idx → EReal) (ix3 0 p h)
        = outK (fun k => score (fun d => (x0 : S1x512x1024.Idx → EReal) (ix3 0 p d)) (fun d => (x1 : S1x2048x1024.Idx → EReal) (ix3 0 k d)) ((x3 : S1x1x2048.Idx → EReal) (ix3 0 0 k)))
               (fun k => (x2 : S1x2048x1024.Idx → EReal) (ix3 0 k h)))
    (x0 : Vec Ideal S1x512x1024 .bf16) (x1 x2 : Vec Ideal S1x2048x1024 .bf16) (x3 : Vec Ideal S1x1x2048 .f32) (j : S1x512x1024.Idx) :
    (k1_pay1 (F := Ideal) x0 x1 x2 x3 : S1x512x1024.Idx → EReal) j
      = outK (fun k => score (fun d => (x0 : S1x512x1024.Idx → EReal) (ix3 0 (j 1) d)) (fun d => (x1 : S1x2048x1024.Idx → EReal) (ix3 0 k d)) ((x3 : S1x1x2048.Idx → EReal) (ix3 0 0 k)))
             (fun k => (x2 : S1x2048x1024.Idx → EReal) (ix3 0 k (j 2))) := by
  obtain ⟨a, p, h, rfl⟩ : ∃ (a : Fin 1) (p : Fin 512) (h : Fin 1024), j = ix3 a p h := ⟨j 0, j 1, j 2, eq_ix3 j⟩
  obtain rfl : a = 0 := Subsingleton.elim _ _
  exact hpay x0 x1 x2 x3 p h

/-- Window 0's block at point t, entry (0, p, d), is entry (B, S, d) of the query array, B the block's batch and S its row. -/
theorem query_block_at (c : Dev nD) (t : Fin cfg1.N) (p : Fin 512) (d : Fin 1024) (B : Fin 4) (S : Fin 2048)
    (hB : B.val = win1_0.index t (0 : Fin 3)) (hS : S.val = win1_0.index t (1 : Fin 3) * 512 + p.val) (h2 : win1_0.index t (2 : Fin 3) = 0) :
    (iblk1 (F := Ideal) V c 0 t : S1x512x1024.Idx → EReal) (ix3 0 p d) = (V c main_call0_v2 : S4x2048x1024.Idx → EReal) (ix3 B S d) := by
  unfold iblk1
  rw [View.read_apply]
  show V c main_call0_v2 _ = V c main_call0_v2 _
  congr 1
  funext a
  apply Fin.ext
  match a with
  | ⟨0, _⟩ => show win1_0.index t (0 : Fin 3) * 1 + 1 * 0 = B.val; omega
  | ⟨1, _⟩ => show win1_0.index t (1 : Fin 3) * 512 + 1 * p.val = S.val; omega
  | ⟨2, _⟩ => show win1_0.index t (2 : Fin 3) * 1024 + 1 * d.val = d.val; omega

/-- Window 1's block at point t, entry (0, k, d), is entry (B, k, d) of the key array, B the block's batch. -/
theorem key_block_at (c : Dev nD) (t : Fin cfg1.N) (k : Fin 2048) (d : Fin 1024) (B : Fin 4)
    (hB : B.val = win1_1.index t (0 : Fin 3)) (h1 : win1_1.index t (1 : Fin 3) = 0) (h2 : win1_1.index t (2 : Fin 3) = 0) :
    (iblk1 (F := Ideal) V c 1 t : S1x2048x1024.Idx → EReal) (ix3 0 k d) = (V c main_call0_v3 : S4x2048x1024.Idx → EReal) (ix3 B k d) := by
  unfold iblk1
  rw [View.read_apply]
  show V c main_call0_v3 _ = V c main_call0_v3 _
  congr 1
  funext a
  apply Fin.ext
  match a with
  | ⟨0, _⟩ => show win1_1.index t (0 : Fin 3) * 1 + 1 * 0 = B.val; omega
  | ⟨1, _⟩ => show win1_1.index t (1 : Fin 3) * 2048 + 1 * k.val = k.val; omega
  | ⟨2, _⟩ => show win1_1.index t (2 : Fin 3) * 1024 + 1 * d.val = d.val; omega

/-- Window 2's block at point t, entry (0, k, d), is entry (B, k, d) of the value array. -/
theorem value_block_at (c : Dev nD) (t : Fin cfg1.N) (k : Fin 2048) (d : Fin 1024) (B : Fin 4) (D : Fin 1024)
    (hB : B.val = win1_2.index t (0 : Fin 3)) (h1 : win1_2.index t (1 : Fin 3) = 0) (hD : D.val = win1_2.index t (2 : Fin 3) * 1024 + d.val) :
    (iblk1 (F := Ideal) V c 2 t : S1x2048x1024.Idx → EReal) (ix3 0 k d) = (V c main_call0_v4 : S4x2048x1024.Idx → EReal) (ix3 B k D) := by
  unfold iblk1
  rw [View.read_apply]
  show V c main_call0_v4 _ = V c main_call0_v4 _
  congr 1
  funext a
  apply Fin.ext
  match a with
  | ⟨0, _⟩ => show win1_2.index t (0 : Fin 3) * 1 + 1 * 0 = B.val; omega
  | ⟨1, _⟩ => show win1_2.index t (1 : Fin 3) * 2048 + 1 * k.val = k.val; omega
  | ⟨2, _⟩ => show win1_2.index t (2 : Fin 3) * 1024 + 1 * d.val = D.val; omega

/-- Window 3's block at point t, entry (0, 0, k), is entry (B, 0, k) of the mask array. -/
theorem mask_block_at (c : Dev nD) (t : Fin cfg1.N) (k : Fin 2048) (B : Fin 4)
    (hB : B.val = win1_3.index t (0 : Fin 3)) (h1 : win1_3.index t (1 : Fin 3) = 0) (h2 : win1_3.index t (2 : Fin 3) = 0) :
    (iblk1 (F := Ideal) V c 3 t : S1x1x2048.Idx → EReal) (ix3 0 0 k) = (V c main_call0_v5 : S4x1x2048.Idx → EReal) (ix3 B 0 k) := by
  unfold iblk1
  rw [View.read_apply]
  show V c main_call0_v5 _ = V c main_call0_v5 _
  congr 1
  funext a
  apply Fin.ext
  match a with
  | ⟨0, _⟩ => show win1_3.index t (0 : Fin 3) * 1 + 1 * 0 = B.val; omega
  | ⟨1, _⟩ => show win1_3.index t (1 : Fin 3) * 1 + 1 * 0 = 0; omega
  | ⟨2, _⟩ => show win1_3.index t (2 : Fin 3) * 2048 + 1 * k.val = k.val; omega

/-- WHAT POINT t WRITES BACK is block t of the whole-array function of the four input arrays as the region finds them. -/
theorem written_back
    (hpay : ∀ (x0 : Vec Ideal S1x512x1024 .bf16) (x1 x2 : Vec Ideal S1x2048x1024 .bf16) (x3 : Vec Ideal S1x1x2048 .f32) (p : Fin 512) (h : Fin 1024),
      (k1_pay1 (F := Ideal) x0 x1 x2 x3 : S1x512x1024.Idx → EReal) (ix3 0 p h)
        = outK (fun k => score (fun d => (x0 : S1x512x1024.Idx → EReal) (ix3 0 p d)) (fun d => (x1 : S1x2048x1024.Idx → EReal) (ix3 0 k d)) ((x3 : S1x1x2048.Idx → EReal) (ix3 0 0 k)))
               (fun k => (x2 : S1x2048x1024.Idx → EReal) (ix3 0 k h)))
    (c : Dev nD) (t : Fin cfg1.N) :
    (dat1 (F := Ideal) V c).flushed 4 t = ((cfg1.win 4).blk t).view.read (Elt Ideal) (attnArr (V c main_call0_v2) (V c main_call0_v3) (V c main_call0_v4) (V c main_call0_v5)) := by
  show (cfg1.win 4).cut (grid1.coords t) ((dat1 V c).after 4 t) = _
  rw [after1_4]
  unfold out1_4
  rw [View.canon_unit_zero zero_offsets]
  simp only [View.ld_unit_zero (S := S1x512x1024) zero_offsets, View.ld_unit_zero (S := S1x2048x1024) zero_offsets, View.ld_unit_zero (S := S1x1x2048) zero_offsets]
  obtain ⟨a00, a01, a02, a10, a11, a12, a20, a21, a22, a30, a31, a32, b0, b1, b2⟩ := block_indices t
  funext j
  show (k1_pay1 (F := Ideal) (iblk1 V c 0 t) (iblk1 V c 1 t) (iblk1 V c 2 t) (iblk1 V c 3 t) : S1x512x1024.Idx → EReal) j
    = attnArr (V c main_call0_v2) (V c main_call0_v3) (V c main_call0_v4) (V c main_call0_v5) (((cfg1.win 4).blk t).view.emb j)
  refine (payload_at hpay _ _ _ _ j).trans ?_
  have E0 : ((((cfg1.win 4).blk t).view.emb j) (0 : Fin 3)).val = win1_4.index t (0 : Fin 3) * 1 + 1 * (j 0).val := rfl
  have E1 : ((((cfg1.win 4).blk t).view.emb j) (1 : Fin 3)).val = win1_4.index t (1 : Fin 3) * 512 + 1 * (j 1).val := rfl
  have E2 : ((((cfg1.win 4).blk t).view.emb j) (2 : Fin 3)).val = win1_4.index t (2 : Fin 3) * 1024 + 1 * (j 2).val := rfl
  have hj0 : (j 0).val < 1 := (j 0).isLt
  have key : attnArr (V c main_call0_v2) (V c main_call0_v3) (V c main_call0_v4) (V c main_call0_v5) (((cfg1.win 4).blk t).view.emb j)
      = attnAt (V c main_call0_v2) (V c main_call0_v3) (V c main_call0_v4) (V c main_call0_v5)
          ((((cfg1.win 4).blk t).view.emb j) (0 : Fin 3)) ((((cfg1.win 4).blk t).view.emb j) (1 : Fin 3)) ((((cfg1.win 4).blk t).view.emb j) (2 : Fin 3)) := rfl
  rw [key]
  unfold attnAt
  refine congrArg₂ outK (funext fun k => ?_) (funext fun k => ?_)
  · refine congr (congr (congrArg score (funext fun d => ?_)) (funext fun d => ?_)) ?_
    · exact query_block_at V c t (j 1) d _ _ (by omega) (by omega) a02
    · exact key_block_at V c t k d _ (by omega) a11 a12
    · exact mask_block_at V c t k _ (by omega) a31 a32
  · exact value_block_at V c t k (j 2) _ _ (by omega) a21 (by omega)

/-- An index of the output array is in point t's block iff each coordinate is in the block's range on its axis. -/
theorem mem_block (t : Fin cfg1.N) (i : S4x2048x1024.Idx) :
    i ∈ ((cfg1.win 4).blk t).view.set ↔ ∀ a : Fin 3, win1_4.index t a * S1x512x1024.size a ≤ (i a).val ∧ (i a).val < win1_4.index t a * S1x512x1024.size a + S1x512x1024.size a := by
  show i ∈ ((View.whole main_v0).slice (win1_4.rect t)).set ↔ _
  rw [View.set_slice_whole, Rect.mem_set_unit]
  exact Iff.rfl

/-- THE COVER: row s of batch b lies in the block of the point whose coordinates are (b, s / 512). -/
theorem tiles_cover (i : S4x2048x1024.Idx) : ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 1024 := (i 2).isLt
  obtain ⟨t, ht⟩ := tile_has_point ⟨(i 0).val, hi0⟩ ⟨(i 1).val / 512, by omega⟩
  have q0 : win1_4.index t (0 : Fin 3) = (i 0).val := congrFun ht 0
  have q1 : win1_4.index t (1 : Fin 3) = (i 1).val / 512 := congrFun ht 1
  have q2 : win1_4.index t (2 : Fin 3) = 0 := congrFun ht 2
  refine ⟨t, flush1_4 t, ?_⟩
  rw [mem_block]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 1024 ≤ (i 2).val ∧ (i 2).val < win1_4.index t (2 : Fin 3) * 1024 + 1024; omega

/-- THE OUTPUT ARRAY after the region, entry by entry. -/
theorem arr_out_of
    (hpay : ∀ (x0 : Vec Ideal S1x512x1024 .bf16) (x1 x2 : Vec Ideal S1x2048x1024 .bf16) (x3 : Vec Ideal S1x1x2048 .f32) (p : Fin 512) (h : Fin 1024),
      (k1_pay1 (F := Ideal) x0 x1 x2 x3 : S1x512x1024.Idx → EReal) (ix3 0 p h)
        = outK (fun k => score (fun d => (x0 : S1x512x1024.Idx → EReal) (ix3 0 p d)) (fun d => (x1 : S1x2048x1024.Idx → EReal) (ix3 0 k d)) ((x3 : S1x1x2048.Idx → EReal) (ix3 0 0 k)))
               (fun k => (x2 : S1x2048x1024.Idx → EReal) (ix3 0 k h)))
    (c : Dev nD) (b : Fin 4) (s : Fin 2048) (h : Fin 1024) :
    ((dat1 (F := Ideal) V c).arrAt 4 cfg1.N : S4x2048x1024.Idx → EReal) (ix3 b s h)
      = outK (fun k => score (fun d => (V c main_call0_v2 : S4x2048x1024.Idx → EReal) (ix3 b s d))
                             (fun d => (V c main_call0_v3 : S4x2048x1024.Idx → EReal) (ix3 b k d))
                             ((V c main_call0_v5 : S4x1x2048.Idx → EReal) (ix3 b 0 k)))
             (fun k => (V c main_call0_v4 : S4x2048x1024.Idx → EReal) (ix3 b k h)) := by
  have e := (dat1 (F := Ideal) V c).arrAt_eq_of_cover 4 (attnArr (V c main_call0_v2) (V c main_call0_v3) (V c main_call0_v4) (V c main_call0_v5))
    (fun t _ => written_back V hpay c t) tiles_cover
  rw [e]
  rfl

end Cert.KernelIdeal.Region1Blocks

end
-- ==== Proof.KernelRun.lean ====
/-
  The idealized kernel's run with its result named.

  The program is two grid regions among reshapes.  Its generated frame runs the four segments and reads the argument
  arrays off the last boundary's contents; read at the result buffer instead, the same run says that the result ends
  holding what the second region's write-backs leave: the fold of its output blocks over the grid.
-/
import proofs.«112890_j41695542509961_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last boundary's contents at the result buffer: what the second region's pipeline leaves in its output array. -/
theorem W4_main_v0 (c : Dev nD) :
    W4 m ρ c (Proc.devRef .tc main_v0) = (dat1 (V3 m ρ) c).arrAt 4 cfg1.N :=
  W4_arr m ρ c 4

set_option backward.isDefEq.respectTransparency.types false in
/-- Every weakly fair execution of the program terminates without a fault, with the result buffer at the second
    region's folded output blocks and the four argument arrays as launched. -/
theorem run : θ_run defs (onTc (τ := τ) (main (F := F))) ⟨m, fun _ => 0, ρ⟩ (fun r => ∀ c : Dev nD,
      r.2.mem ((c.tc : Thread nD τ).loc main_v0) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v0 (by decide))).trans (W4_main_v0 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.KRun

end
-- ==== Proof.LibRowBatch.lean ====
/-
  A row-batched array and its flattening, read at an index.

  An array [a, b, n] holds a * b rows of n lanes; its reshape to a matrix [N, n] with N = a * b holds the same rows in
  the same order: row (p, s) of the array is row p * b + s of the matrix, lane by lane. The row-major position of
  (p, s, k) in [a, b, n] is (p * b + s) * n + k, and that of (R, k) in [N, n] is R * n + k, so the two reshapes (matrix
  from array, array from matrix) each read the one element with the same row and lane.
-/
import Idealize.ShloMosaic.PureOps.Ideal
import Idealize.ShloMosaic.Lib.ValueIdx
import Idealize.ShloMosaic.Lib.Pipeline.Value

noncomputable section

namespace Cert.RowBatch

open Idealize.ShloMosaic Idealize.ShloMosaic.ValueIdx

variable {α : Type}

/-- The matrix [N, n] made of an array [a, b, n] reads, at row R = p * b + s and lane k, the array at (p, s, k). -/
theorem flatten_rows {a b n N : ℕ} (x : (⟨3, ![a, b, n]⟩ : Shape).Idx → α)
    (h : (⟨3, ![a, b, n]⟩ : Shape).ShapeCasts ⟨2, ![N, n]⟩) (p : Fin a) (s : Fin b) (k : Fin n) (R : Fin N)
    (hR : R.val = p.val * b + s.val) : shapeCast ⟨2, ![N, n]⟩ x h (ix2 R k) = x (ix3 p s k) :=
  shapeCast_apply x h _ _ (by
    rw [Shape.rowMajor_val_two, Shape.rowMajor_val_three]
    show (p.val * b + s.val) * n + k.val = R.val * n + k.val
    rw [hR])

/-- The array [a, b, n] made of a matrix [N, n] reads, at (p, s, k), the matrix at row R = p * b + s and lane k. -/
theorem unflatten_rows {a b n N : ℕ} (x : (⟨2, ![N, n]⟩ : Shape).Idx → α)
    (h : (⟨2, ![N, n]⟩ : Shape).ShapeCasts ⟨3, ![a, b, n]⟩) (p : Fin a) (s : Fin b) (k : Fin n) (R : Fin N)
    (hR : R.val = p.val * b + s.val) : shapeCast ⟨3, ![a, b, n]⟩ x h (ix3 p s k) = x (ix2 R k) :=
  shapeCast_apply x h _ _ (by
    rw [Shape.rowMajor_val_two, Shape.rowMajor_val_three]
    show R.val * n + k.val = (p.val * b + s.val) * n + k.val
    rw [hR])

end Cert.RowBatch

end
-- ==== Proof.HostReads.lean ====
/-
  The reshapes around the two grid regions, read at an index.

  The program reshapes its input [4, 2048, 1024] to a matrix [8192, 1024] before the first region, and after it
  reshapes the three projected matrices [8192, 1024] back to [4, 2048, 1024] and the mask [4, 2048] to [4, 1, 2048].
  Row (b, s) of an array [4, 2048, n] is row b * 2048 + s of the matrix, lane by lane; the mask's entry (b, 0, k) is
  its entry (b, k).  The weights and the bias reach the first region as launched.
-/
import proofs.«112890_j41695542509961_2_alg».proof.Proof.Gen.KernelIdeal.Frame
import proofs.«112890_j41695542509961_2_alg».proof.Proof.LibRowBatch
import Idealize.ShloMosaic.Lib.StableHlo.Run
import Idealize.ShloMosaic.Lib.Pipeline.Value
import Idealize.ShloMosaic.Lib.ValueIdx

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- Row b * 2048 + s of the 8192 rows. -/
def flat (b : Fin 4) (s : Fin 2048) : Fin 8192 := ⟨b.val * 2048 + s.val, by have := b.isLt; have := s.isLt; omega⟩

/-- The first region finds the input reshaped: row (b, s) of the input is row b * 2048 + s of the matrix. -/
theorem entry0_x (c : Dev nD) (b : Fin 4) (s : Fin 2048) (j : Fin 1024) :
    (V1 m ρ c main_call0_v0 : S8192x1024.Idx → EReal) (ix2 (flat b s) j)
      = (m ((c : Thread nD τ).loc main_arg0) : S4x2048x1024.Idx → EReal) (ix3 b s j) := by
  have e : (V1 m ρ c main_call0_v0 : S8192x1024.Idx → EReal)
      = shapeCast S8192x1024 (m ((c : Thread nD τ).loc main_arg0) : S4x2048x1024.Idx → EReal) shapeCasts_S4x2048x1024_S8192x1024 := by
    show StableHlo.after hostOps0 (W0 m ρ c) (Proc.devRef .tc main_call0_v0) = _
    after_results
    rfl
  rw [e]
  exact Cert.RowBatch.flatten_rows _ _ b s j (flat b s) rfl

/-- The first region finds the weights and the bias as launched: the one reshape before it writes neither. -/
theorem entry0_w (c : Dev nD) : V1 m ρ c main_arg2 = m ((c : Thread nD τ).loc main_arg2) := by
  show StableHlo.after hostOps0 (W0 m ρ c) (Proc.devRef .tc main_arg2) = _
  after_results
theorem entry0_b (c : Dev nD) : V1 m ρ c main_arg3 = m ((c : Thread nD τ).loc main_arg3) := by
  show StableHlo.after hostOps0 (W0 m ρ c) (Proc.devRef .tc main_arg3) = _
  after_results

/-- The second region finds each projected matrix reshaped back: its row (b, s) is row b * 2048 + s of what the first
    region's write-backs left in that output array. -/
theorem entry1_q (c : Dev nD) (b : Fin 4) (s : Fin 2048) (d : Fin 1024) :
    (V3 m ρ c main_call0_v2 : S4x2048x1024.Idx → EReal) (ix3 b s d)
      = ((dat0 (V1 m ρ) c).arrAt 3 cfg0.N : S8192x1024.Idx → EReal) (ix2 (flat b s) d) := by
  have e : (V3 m ρ c main_call0_v2 : S4x2048x1024.Idx → EReal)
      = shapeCast S4x2048x1024 (W2 m ρ c (Proc.devRef .tc main_call0_v1_0) : S8192x1024.Idx → EReal) shapeCasts_S8192x1024_S4x2048x1024 := by
    show StableHlo.after hostOps1 (W2 m ρ c) (Proc.devRef .tc main_call0_v2) = _
    after_results
    rfl
  rw [e, Cert.RowBatch.unflatten_rows _ _ b s d (flat b s) rfl]
  exact congrFun (W2_arr m ρ c 3) _
theorem entry1_k (c : Dev nD) (b : Fin 4) (s : Fin 2048) (d : Fin 1024) :
    (V3 m ρ c main_call0_v3 : S4x2048x1024.Idx → EReal) (ix3 b s d)
      = ((dat0 (V1 m ρ) c).arrAt 4 cfg0.N : S8192x1024.Idx → EReal) (ix2 (flat b s) d) := by
  have e : (V3 m ρ c main_call0_v3 : S4x2048x1024.Idx → EReal)
      = shapeCast S4x2048x1024 (W2 m ρ c (Proc.devRef .tc main_call0_v1_1) : S8192x1024.Idx → EReal) shapeCasts_S8192x1024_S4x2048x1024 := by
    show StableHlo.after hostOps1 (W2 m ρ c) (Proc.devRef .tc main_call0_v3) = _
    after_results
    rfl
  rw [e, Cert.RowBatch.unflatten_rows _ _ b s d (flat b s) rfl]
  exact congrFun (W2_arr m ρ c 4) _
theorem entry1_v (c : Dev nD) (b : Fin 4) (s : Fin 2048) (d : Fin 1024) :
    (V3 m ρ c main_call0_v4 : S4x2048x1024.Idx → EReal) (ix3 b s d)
      = ((dat0 (V1 m ρ) c).arrAt 5 cfg0.N : S8192x1024.Idx → EReal) (ix2 (flat b s) d) := by
  have e : (V3 m ρ c main_call0_v4 : S4x2048x1024.Idx → EReal)
      = shapeCast S4x2048x1024 (W2 m ρ c (Proc.devRef .tc main_call0_v1_2) : S8192x1024.Idx → EReal) shapeCasts_S8192x1024_S4x2048x1024 := by
    show StableHlo.after hostOps1 (W2 m ρ c) (Proc.devRef .tc main_call0_v4) = _
    after_results
    rfl
  rw [e, Cert.RowBatch.unflatten_rows _ _ b s d (flat b s) rfl]
  exact congrFun (W2_arr m ρ c 5) _

/-- An array [a, n] with a unit axis inserted in the middle reads, at (p, 0, k), the array at (p, k): both sit at
    row-major position p * n + k. -/
theorem unit_axis_read {α : Type} {a n : ℕ} (x : (⟨2, ![a, n]⟩ : Shape).Idx → α)
    (h : (⟨2, ![a, n]⟩ : Shape).ShapeCasts ⟨3, ![a, 1, n]⟩) (p : Fin a) (k : Fin n) :
    shapeCast ⟨3, ![a, 1, n]⟩ x h (ix3 p 0 k) = x (ix2 p k) :=
  shapeCast_apply x h _ _ (by
    rw [Shape.rowMajor_val_two, Shape.rowMajor_val_three]
    show p.val * n + k.val = (p.val * 1 + (0 : Fin 1).val) * n + k.val
    simp)

/-- The mask reaches the second region with a unit axis inserted: its entry (b, 0, k) is the launched mask's (b, k).
    Neither the first region nor the reshape before it writes the mask. -/
theorem entry1_mask (c : Dev nD) (b : Fin 4) (k : Fin 2048) :
    (V3 m ρ c main_call0_v5 : S4x1x2048.Idx → EReal) (ix3 b 0 k)
      = (m ((c : Thread nD τ).loc main_arg1) : S4x2048.Idx → EReal) (ix2 b k) := by
  have e : (V3 m ρ c main_call0_v5 : S4x1x2048.Idx → EReal)
      = shapeCast S4x1x2048 (W2 m ρ c (Proc.devRef .tc main_arg1) : S4x2048.Idx → EReal) shapeCasts_S4x2048_S4x1x2048 := by
    show StableHlo.after hostOps1 (W2 m ρ c) (Proc.devRef .tc main_call0_v5) = _
    after_results
    rfl
  have e2 : (W2 m ρ c (Proc.devRef .tc main_arg1) : S4x2048.Idx → EReal) = m ((c : Thread nD τ).loc main_arg1) := by
    rw [W2_of_ne m ρ c main_arg1 (by decide)]
    show StableHlo.after hostOps0 (W0 m ρ c) (Proc.devRef .tc main_arg1) = _
    after_results
  rw [e, e2]
  exact unit_axis_read _ _ b k

end Cert.KernelIdeal.HostReads

end
-- ==== Proof.Glue.lean ====
/-
  The idealized kernel's result, entry by entry, as a function of the argument arrays.

  The second region's output entry (b, s, h) is the kernel's arrangement `outK` of a row of scores and a column of values
  read off the arrays that region finds.  Those arrays are the first region's three outputs reshaped, and each of their
  entries is a projection entry of the arrays the first region finds: the reshaped input, the weights and the bias.
  Composing the reads, the result entry is `outK` of the score row (b, s) and the value column h of the arguments.
-/
import proofs.«112890_j41695542509961_2_alg».proof.Proof.HostReads
import proofs.«112890_j41695542509961_2_alg».proof.Proof.Spec

set_option maxRecDepth 16384

noncomputable section

namespace Cert.KernelIdeal.Glue

open Cert.KernelIdeal Cert.KernelIdeal.Gen Cert.KernelIdeal.HostReads Cert.Attn
open Idealize.ShloMosaic Idealize.ShloMosaic.TcCoe Idealize.SL.Sem Idealize.ShloMosaic.ValueIdx

variable (m : (ℓ : Loc nD τ sig) → Buf (Elt Ideal) ℓ) (ρ : Dev nD → PrngReg)

section
variable
  (hq : ∀ (V : (c : Dev nD) → (b : Ref sig .tc) → Buf (Elt Ideal) ((c : Thread nD τ).loc b)) (c : Dev nD) (r : Fin 8192) (d : Fin 1024),
      ((dat0 (F := Ideal) V c).arrAt 3 cfg0.N : S8192x1024.Idx → EReal) (ix2 r d)
        = proj (fun j => (V c main_call0_v0 : S8192x1024.Idx → EReal) (ix2 r j))
               (fun j => (V c main_arg2 : S1024x3072.Idx → EReal) (ix2 j (col 0 (by norm_num) d)))
               ((V c main_arg3 : S3072.Idx → EReal) (ix1 (col 0 (by norm_num) d))) * cScale)
  (hk : ∀ (V : (c : Dev nD) → (b : Ref sig .tc) → Buf (Elt Ideal) ((c : Thread nD τ).loc b)) (c : Dev nD) (r : Fin 8192) (d : Fin 1024),
      ((dat0 (F := Ideal) V c).arrAt 4 cfg0.N : S8192x1024.Idx → EReal) (ix2 r d)
        = proj (fun j => (V c main_call0_v0 : S8192x1024.Idx → EReal) (ix2 r j))
               (fun j => (V c main_arg2 : S1024x3072.Idx → EReal) (ix2 j (col 1024 (by norm_num) d)))
               ((V c main_arg3 : S3072.Idx → EReal) (ix1 (col 1024 (by norm_num) d))))
  (hv : ∀ (V : (c : Dev nD) → (b : Ref sig .tc) → Buf (Elt Ideal) ((c : Thread nD τ).loc b)) (c : Dev nD) (r : Fin 8192) (d : Fin 1024),
      ((dat0 (F := Ideal) V c).arrAt 5 cfg0.N : S8192x1024.Idx → EReal) (ix2 r d)
        = proj (fun j => (V c main_call0_v0 : S8192x1024.Idx → EReal) (ix2 r j))
               (fun j => (V c main_arg2 : S1024x3072.Idx → EReal) (ix2 j (col 2048 (by norm_num) d)))
               ((V c main_arg3 : S3072.Idx → EReal) (ix1 (col 2048 (by norm_num) d))))
  (ho : ∀ (V : (c : Dev nD) → (b : Ref sig .tc) → Buf (Elt Ideal) ((c : Thread nD τ).loc b)) (c : Dev nD) (b : Fin 4) (s : Fin 2048) (h : Fin 1024),
      ((dat1 (F := Ideal) V c).arrAt 4 cfg1.N : S4x2048x1024.Idx → EReal) (ix3 b s h)
        = outK (fun k => score (fun d => (V c main_call0_v2 : S4x2048x1024.Idx → EReal) (ix3 b s d))
                               (fun d => (V c main_call0_v3 : S4x2048x1024.Idx → EReal) (ix3 b k d))
                               ((V c main_call0_v5 : S4x1x2048.Idx → EReal) (ix3 b 0 k)))
               (fun k => (V c main_call0_v4 : S4x2048x1024.Idx → EReal) (ix3 b k h)))

include hq in
/-- The scaled query the second region finds at (b, s, d) is the arguments' `qAt`. -/
theorem q_at (c : Dev nD) (b : Fin 4) (s : Fin 2048) (d : Fin 1024) :
    (V3 m ρ c main_call0_v2 : S4x2048x1024.Idx → EReal) (ix3 b s d)
      = qAt (m ((c : Thread nD τ).loc main_arg0)) (m ((c : Thread nD τ).loc main_arg2)) (m ((c : Thread nD τ).loc main_arg3)) b s d := by
  rw [entry1_q, hq (V1 m ρ) c (flat b s) d, entry0_w, entry0_b]
  unfold qAt projAt
  congr 2
  funext j
  exact entry0_x m ρ c b s j

include hk in
theorem k_at (c : Dev nD) (b : Fin 4) (s : Fin 2048) (d : Fin 1024) :
    (V3 m ρ c main_call0_v3 : S4x2048x1024.Idx → EReal) (ix3 b s d)
      = kAt (m ((c : Thread nD τ).loc main_arg0)) (m ((c : Thread nD τ).loc main_arg2)) (m ((c : Thread nD τ).loc main_arg3)) b s d := by
  rw [entry1_k, hk (V1 m ρ) c (flat b s) d, entry0_w, entry0_b]
  unfold kAt projAt
  congr 1
  funext j
  exact entry0_x m ρ c b s j

include hv in
theorem v_at (c : Dev nD) (b : Fin 4) (s : Fin 2048) (d : Fin 1024) :
    (V3 m ρ c main_call0_v4 : S4x2048x1024.Idx → EReal) (ix3 b s d)
      = vAt (m ((c : Thread nD τ).loc main_arg0)) (m ((c : Thread nD τ).loc main_arg2)) (m ((c : Thread nD τ).loc main_arg3)) b s d := by
  rw [entry1_v, hv (V1 m ρ) c (flat b s) d, entry0_w, entry0_b]
  unfold vAt projAt
  congr 1
  funext j
  exact entry0_x m ρ c b s j

include hq hk hv ho in
/-- THE KERNEL'S VALUE: entry (b, s, h) of what the second region's write-backs leave in the result array. -/
theorem kernel_value (c : Dev nD) (b : Fin 4) (s : Fin 2048) (h : Fin 1024) :
    ((dat1 (V3 m ρ) c).arrAt 4 cfg1.N : S4x2048x1024.Idx → EReal) (ix3 b s h)
      = outK (scoreRow (m ((c : Thread nD τ).loc main_arg0)) (m ((c : Thread nD τ).loc main_arg1)) (m ((c : Thread nD τ).loc main_arg2)) (m ((c : Thread nD τ).loc main_arg3)) b s)
             (fun k => vAt (m ((c : Thread nD τ).loc main_arg0)) (m ((c : Thread nD τ).loc main_arg2)) (m ((c : Thread nD τ).loc main_arg3)) b k h) := by
  rw [ho (V3 m ρ) c b s h]
  unfold scoreRow
  congr 1
  · funext k
    rw [entry1_mask]
    congr 1
    · funext d; exact q_at m ρ hq c b s d
    · funext d; exact k_at m ρ hk c b k d
  · funext k; exact v_at m ρ hv c b k h

end

end Cert.KernelIdeal.Glue

end
-- ==== Proof.RefValue.lean ====
import proofs.«112890_j41695542509961_2_alg».proof.Proof.Gen.ReferenceIdeal.Read
import proofs.«112890_j41695542509961_2_alg».proof.Proof.Spec

/-
  The reference's result, entry by entry, on the extended reals.

  Each stage of the reference is read at explicit coordinates: the projection x · W + b at (b, s, c); its three column
  thirds as the scaled query, the key and the value; the masked scores at (b, s, k) as entry k of the score row (b, s);
  the row maximum as the fold of max from -∞ over that row; the exponentials of the scores less the maximum, their sum
  from the zero word, the quotients; and at last the sum over k of quotient times value, which is `outR`.
-/

noncomputable section

namespace Cert.ReferenceIdeal.RefValue

open Cert.ReferenceIdeal Cert.ReferenceIdeal.Read Cert.Attn Idealize.ShloMosaic Idealize.ShloMosaic.ValueIdx

/-- Entry (b, s, c) of the projection: row (b, s) of the input against column c of the weights, plus the bias at c. -/
theorem v3_at (x0 : (⟨S4x2048x1024, .f32⟩ : BufTy).Contents (Elt Ideal)) (x2 : (⟨S1024x3072, .f32⟩ : BufTy).Contents (Elt Ideal))
    (x3 : (⟨S3072, .f32⟩ : BufTy).Contents (Elt Ideal)) (b : Fin 4) (s : Fin 2048) (c : Fin 3072) :
    val_main_v3 (F := Ideal) x0 x2 x3 (ix3 b s c)
      = proj (fun j => x0 (ix3 b s j)) (fun j => x2 (ix2 j c)) (x3 (ix1 c)) := by
  rw [val_main_v3_apply, val_main_v0_apply, val_main_v2_apply, val_main_v1_apply, Ideal.addf_def]
  unfold proj
  have e0 : ∀ k : Fin 1024, lidx_main_v0 (ix3 b s c) k = ix3 b s k := fun k =>
    funext fun a => Fin.ext (by match a with | ⟨0, _⟩ => rfl | ⟨1, _⟩ => rfl | ⟨2, _⟩ => rfl)
  have e1 : ∀ k : Fin 1024, ridx_main_v0 (ix3 b s c) k = ix2 k c := fun k =>
    funext fun a => Fin.ext (by match a with | ⟨0, _⟩ => rfl | ⟨1, _⟩ => rfl)
  have e2 : idx_main_v1 (idx_main_v2 (ix3 b s c)) = ix1 c :=
    funext fun a => Fin.ext (by match a with | ⟨0, _⟩ => rfl)
  rw [e2]
  exact congrArg (· + x3 (ix1 c)) (Finset.sum_congr rfl fun k _ => by rw [e0, e1])

/-- The first third of the projection, times the scale word: the scaled query. -/
theorem v8_at (x0 : (⟨S4x2048x1024, .f32⟩ : BufTy).Contents (Elt Ideal)) (x2 : (⟨S1024x3072, .f32⟩ : BufTy).Contents (Elt Ideal))
    (x3 : (⟨S3072, .f32⟩ : BufTy).Contents (Elt Ideal)) (b : Fin 4) (s : Fin 2048) (d : Fin 1024) :
    val_main_v8 (F := Ideal) x0 x2 x3 (ix3 b s d) = qAt x0 x2 x3 b s d := by
  rw [val_main_v8_apply, val_main_v4_apply, val_main_v7_apply, val_main_cst_apply, Ideal.mulf_def, Ideal.ofBits_def]
  have e : idx_main_v4 (ix3 b s d) = ix3 b s (col 0 (by norm_num) d) :=
    funext fun a => Fin.ext (by
      match a with
      | ⟨0, _⟩ => rfl
      | ⟨1, _⟩ => rfl
      | ⟨2, _⟩ => exact (Nat.zero_add _).symm)
  rw [e, v3_at]
  rfl

/-- The second third of the projection: the key. -/
theorem v5_at (x0 : (⟨S4x2048x1024, .f32⟩ : BufTy).Contents (Elt Ideal)) (x2 : (⟨S1024x3072, .f32⟩ : BufTy).Contents (Elt Ideal))
    (x3 : (⟨S3072, .f32⟩ : BufTy).Contents (Elt Ideal)) (b : Fin 4) (s : Fin 2048) (d : Fin 1024) :
    val_main_v5 (F := Ideal) x0 x2 x3 (ix3 b s d) = kAt x0 x2 x3 b s d := by
  rw [val_main_v5_apply]
  have e : idx_main_v5 (ix3 b s d) = ix3 b s (col 1024 (by norm_num) d) :=
    funext fun a => Fin.ext (by match a with | ⟨0, _⟩ => rfl | ⟨1, _⟩ => rfl | ⟨2, _⟩ => rfl)
  rw [e, v3_at]
  rfl

/-- The last third of the projection: the value. -/
theorem v6_at (x0 : (⟨S4x2048x1024, .f32⟩ : BufTy).Contents (Elt Ideal)) (x2 : (⟨S1024x3072, .f32⟩ : BufTy).Contents (Elt Ideal))
    (x3 : (⟨S3072, .f32⟩ : BufTy).Contents (Elt Ideal)) (b : Fin 4) (s : Fin 2048) (d : Fin 1024) :
    val_main_v6 (F := Ideal) x0 x2 x3 (ix3 b s d) = vAt x0 x2 x3 b s d := by
  rw [val_main_v6_apply]
  have e : idx_main_v6 (ix3 b s d) = ix3 b s (col 2048 (by norm_num) d) :=
    funext fun a => Fin.ext (by match a with | ⟨0, _⟩ => rfl | ⟨1, _⟩ => rfl | ⟨2, _⟩ => rfl)
  rw [e, v3_at]
  rfl

/-- Entry (b, s, k) of the masked scores is entry k of the score row (b, s). -/
theorem v16_at (x0 : (⟨S4x2048x1024, .f32⟩ : BufTy).Contents (Elt Ideal)) (x1 : (⟨S4x2048, .f32⟩ : BufTy).Contents (Elt Ideal))
    (x2 : (⟨S1024x3072, .f32⟩ : BufTy).Contents (Elt Ideal)) (x3 : (⟨S3072, .f32⟩ : BufTy).Contents (Elt Ideal))
    (b : Fin 4) (s k : Fin 2048) :
    val_main_v16 (F := Ideal) x0 x1 x2 x3 (ix3 b s k) = scoreRow x0 x1 x2 x3 b s k := by
  rw [val_main_v16_apply, val_main_v9_apply, val_main_v15_apply, val_main_v14_apply, val_main_v12_apply, val_main_v11_apply,
    val_main_v10_apply, val_main_cst_0_apply, val_main_v13_apply, val_main_cst_1_apply,
    Ideal.addf_def, Ideal.mulf_def, Ideal.subf_def, Ideal.ofBits_def, Ideal.ofBits_def]
  have el : ∀ d : Fin 1024, lidx_main_v9 (ix3 b s k) d = ix3 b s d := fun d =>
    funext fun a => Fin.ext (by match a with | ⟨0, _⟩ => rfl | ⟨1, _⟩ => rfl | ⟨2, _⟩ => rfl)
  have er : ∀ d : Fin 1024, ridx_main_v9 (ix3 b s k) d = ix3 b k d := fun d =>
    funext fun a => Fin.ext (by match a with | ⟨0, _⟩ => rfl | ⟨1, _⟩ => rfl | ⟨2, _⟩ => rfl)
  have em : idx_main_v12 (idx_main_v15 (ix3 b s k)) = ix2 b k :=
    funext fun a => Fin.ext (by match a with | ⟨0, _⟩ => rfl | ⟨1, _⟩ => rfl)
  rw [em]
  unfold scoreRow score
  exact congrArg (· + (cOne - x1 (ix2 b k)) * cNeg) (Finset.sum_congr rfl fun d _ => by rw [el, er, v8_at, v5_at])

/-- The reduced index (b, s) with coordinate k put back on the last axis is (b, s, k). -/
theorem lift_ix2 (h : S4x2048x2048.Reduces [2] S4x2048) (b : Fin 4) (s : Fin 2048) (k : Fin (S4x2048x2048.size 2)) :
    h.lift (ix2 b s) k = ix3 b s (⟨k.val, k.isLt⟩ : Fin 2048) := by
  funext c; apply Fin.ext
  fin_cases c <;> rfl

/-- The maximum over the last axis, folded from the -∞ word, at (b, s): the maximum of the score row. -/
theorem v17_at (x0 : (⟨S4x2048x1024, .f32⟩ : BufTy).Contents (Elt Ideal)) (x1 : (⟨S4x2048, .f32⟩ : BufTy).Contents (Elt Ideal))
    (x2 : (⟨S1024x3072, .f32⟩ : BufTy).Contents (Elt Ideal)) (x3 : (⟨S3072, .f32⟩ : BufTy).Contents (Elt Ideal))
    (b : Fin 4) (s : Fin 2048) :
    val_main_v17 (F := Ideal) x0 x1 x2 x3 (ix2 b s) = rowMax (scoreRow x0 x1 x2 x3 b s) := by
  have h : S4x2048x2048.Reduces [2] S4x2048 := by decide
  unfold val_main_v17
  rw [Host.reduce_eq_fold_single FloatOps.maximumf _ _ _ h]
  have hf : (val_main_v16 (F := Ideal) x0 x1 x2 x3 ∘ h.lift (ix2 b s)) = scoreRow x0 x1 x2 x3 b s :=
    funext fun k => by
      show val_main_v16 (F := Ideal) x0 x1 x2 x3 (h.lift (ix2 b s) k) = _
      rw [lift_ix2 h b s k, v16_at]
      rfl
  rw [hf]
  rfl

/-- The maximum taken once more against the -∞ word, at (b, s). -/
theorem v19_at (x0 : (⟨S4x2048x1024, .f32⟩ : BufTy).Contents (Elt Ideal)) (x1 : (⟨S4x2048, .f32⟩ : BufTy).Contents (Elt Ideal))
    (x2 : (⟨S1024x3072, .f32⟩ : BufTy).Contents (Elt Ideal)) (x3 : (⟨S3072, .f32⟩ : BufTy).Contents (Elt Ideal))
    (b : Fin 4) (s : Fin 2048) :
    val_main_v19 (F := Ideal) x0 x1 x2 x3 (ix2 b s) = max cNinf (rowMax (scoreRow x0 x1 x2 x3 b s)) := by
  rw [val_main_v19_apply, val_main_v18_apply, val_main_cst_3_apply, v17_at, Ideal.maximumf_def, Ideal.ofBits_def]

/-- The exponential of a score less its row's maximum, at (b, s, k). -/
theorem v23_at (x0 : (⟨S4x2048x1024, .f32⟩ : BufTy).Contents (Elt Ideal)) (x1 : (⟨S4x2048, .f32⟩ : BufTy).Contents (Elt Ideal))
    (x2 : (⟨S1024x3072, .f32⟩ : BufTy).Contents (Elt Ideal)) (x3 : (⟨S3072, .f32⟩ : BufTy).Contents (Elt Ideal))
    (b : Fin 4) (s k : Fin 2048) :
    val_main_v23 (F := Ideal) x0 x1 x2 x3 (ix3 b s k)
      = Ideal.exp (scoreRow x0 x1 x2 x3 b s k - max cNinf (rowMax (scoreRow x0 x1 x2 x3 b s))) := by
  rw [val_main_v23_apply, val_main_v22_apply, val_main_v21_apply, val_main_v20_apply, v16_at,
    Ideal.hostUnary_exp_def, Ideal.subf_def]
  have e : idx_main_v20 (idx_main_v21 (ix3 b s k)) = ix2 b s :=
    funext fun a => Fin.ext (by match a with | ⟨0, _⟩ => rfl | ⟨1, _⟩ => rfl)
  rw [e, v19_at]

/-- The sum of a row's exponentials, started from the zero word, at (b, s). -/
theorem v24_at (x0 : (⟨S4x2048x1024, .f32⟩ : BufTy).Contents (Elt Ideal)) (x1 : (⟨S4x2048, .f32⟩ : BufTy).Contents (Elt Ideal))
    (x2 : (⟨S1024x3072, .f32⟩ : BufTy).Contents (Elt Ideal)) (x3 : (⟨S3072, .f32⟩ : BufTy).Contents (Elt Ideal))
    (b : Fin 4) (s : Fin 2048) :
    val_main_v24 (F := Ideal) x0 x1 x2 x3 (ix2 b s)
      = cZero + ∑ k' : Fin 2048, Ideal.exp (scoreRow x0 x1 x2 x3 b s k' - max cNinf (rowMax (scoreRow x0 x1 x2 x3 b s))) := by
  rw [val_main_v24_apply, val_main_cst_4_apply, Ideal.ofBits_def]
  have e : ∀ k : Fin 2048, idx_main_v24 (ix2 b s) k = ix3 b s k := fun k =>
    funext fun a => Fin.ext (by match a with | ⟨0, _⟩ => rfl | ⟨1, _⟩ => rfl | ⟨2, _⟩ => rfl)
  exact congrArg (cZero + ·) (Finset.sum_congr rfl fun k _ => by rw [e, v23_at])

/-- A row's exponential divided by the row's sum, at (b, s, k). -/
theorem v27_at (x0 : (⟨S4x2048x1024, .f32⟩ : BufTy).Contents (Elt Ideal)) (x1 : (⟨S4x2048, .f32⟩ : BufTy).Contents (Elt Ideal))
    (x2 : (⟨S1024x3072, .f32⟩ : BufTy).Contents (Elt Ideal)) (x3 : (⟨S3072, .f32⟩ : BufTy).Contents (Elt Ideal))
    (b : Fin 4) (s k : Fin 2048) :
    val_main_v27 (F := Ideal) x0 x1 x2 x3 (ix3 b s k)
      = Ideal.div (Ideal.exp (scoreRow x0 x1 x2 x3 b s k - max cNinf (rowMax (scoreRow x0 x1 x2 x3 b s))))
          (cZero + ∑ k' : Fin 2048, Ideal.exp (scoreRow x0 x1 x2 x3 b s k' - max cNinf (rowMax (scoreRow x0 x1 x2 x3 b s)))) := by
  rw [val_main_v27_apply, val_main_v26_apply, val_main_v25_apply, v23_at, Ideal.hostDivf_def]
  have e : idx_main_v25 (idx_main_v26 (ix3 b s k)) = ix2 b s :=
    funext fun a => Fin.ext (by match a with | ⟨0, _⟩ => rfl | ⟨1, _⟩ => rfl)
  rw [e, v24_at]

/-- The reference's result at (b, s, h): every weight divided by the sum of the weights, then the weighted sum of the values. -/
theorem ref_at (x0 : (⟨S4x2048x1024, .f32⟩ : BufTy).Contents (Elt Ideal)) (x1 : (⟨S4x2048, .f32⟩ : BufTy).Contents (Elt Ideal))
    (x2 : (⟨S1024x3072, .f32⟩ : BufTy).Contents (Elt Ideal)) (x3 : (⟨S3072, .f32⟩ : BufTy).Contents (Elt Ideal))
    (b : Fin 4) (s : Fin 2048) (h : Fin 1024) :
    val_main_v28 (F := Ideal) x0 x1 x2 x3 (ix3 b s h)
      = outR (scoreRow x0 x1 x2 x3 b s) (fun k => vAt x0 x2 x3 b k h) := by
  rw [val_main_v28_apply]
  have el : ∀ k : Fin 2048, lidx_main_v28 (ix3 b s h) k = ix3 b s k := fun k =>
    funext fun a => Fin.ext (by match a with | ⟨0, _⟩ => rfl | ⟨1, _⟩ => rfl | ⟨2, _⟩ => rfl)
  have er : ∀ k : Fin 2048, ridx_main_v28 (ix3 b s h) k = ix3 b k h := fun k =>
    funext fun a => Fin.ext (by match a with | ⟨0, _⟩ => rfl | ⟨1, _⟩ => rfl | ⟨2, _⟩ => rfl)
  unfold outR
  exact Finset.sum_congr rfl fun k _ => by rw [el, er, v27_at, v6_at]

end Cert.ReferenceIdeal.RefValue

end
-- ==== Proof.Algebra.lean ====
/-
  The algebra of one attention layer on the extended reals.

  Everything the two programs compute is a real number once the inputs are: a projection entry and a score are finite
  sums of products of reals; the maximum of a row of real scores is real; every exponential weight is a positive real,
  and so is their sum.  With a real, nonzero denominator a division is a multiplication by the reciprocal, and the
  only difference between the two arrangements is the real identity  (∑ pₖ vₖ) · L⁻¹ = ∑ (pₖ · L⁻¹) · vₖ .
  Finiteness is essential: on the extended reals the exchange fails at the infinities.
-/
import proofs.«112890_j41695542509961_2_alg».proof.Proof.Spec
import Idealize.ShloMosaic.PureOps.Ideal.Laws

noncomputable section

namespace Cert.Attn

open Idealize.ShloMosaic

/-! ## The literal words -/

/-- A coerced real is real. -/
theorem isReal_coe (r : ℝ) : IsReal (r : EReal) := ⟨r, rfl⟩

/-- The scale word has a biased exponent strictly between 0 and 255: a normal number. -/
theorem isReal_cScale : IsReal cScale := by
  unfold IsReal
  simp [Ideal.ofBits, Ideal.ieee, -EReal.coe_mul]

/-- The word of 1 is a normal number. -/
theorem isReal_cOne : IsReal cOne := by
  unfold IsReal
  simp [Ideal.ofBits, Ideal.ieee, -EReal.coe_mul]

/-- The word of -10000 is a normal number with its sign bit set: the negation of a real. -/
theorem isReal_cNeg : IsReal cNeg := by
  unfold IsReal
  simp [Ideal.ofBits, Ideal.ieee, -EReal.coe_mul]
  exact ⟨_, (EReal.coe_neg _).symm⟩

/-- Sign bit set, all-ones exponent, zero significand: -∞. -/
theorem cNinf_eq_bot : cNinf = ⊥ := by
  simp [Ideal.ofBits, Ideal.ieee]

/-- The all-zero word is 0. -/
theorem cZero_eq_zero : cZero = 0 := Ideal.ofBits_zero_f32

/-! ## Reals are closed under the ring operations and finite sums -/

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The coercion commutes with a finite sum. -/
theorem coe_sum {ι : Type*} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (h : ∀ k ∈ s, IsReal (f k)) :
    IsReal (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

/-- A projection entry of real data is real: a finite sum of products, plus the bias. -/
theorem isReal_proj (x w : Fin 1024 → EReal) (b : EReal) (hx : ∀ j, IsReal (x j)) (hw : ∀ j, IsReal (w j))
    (hb : IsReal b) : IsReal (proj x w b) :=
  (isReal_sum _ _ fun j _ => (hx j).mul (hw j)).add hb

/-- A score of real data is real: a finite sum of products, plus the product of two reals. -/
theorem isReal_score (q k : Fin 1024 → EReal) (mk : EReal) (hq : ∀ d, IsReal (q d)) (hk : ∀ d, IsReal (k d))
    (hm : IsReal mk) : IsReal (score q k mk) :=
  (isReal_sum _ _ fun d _ => (hq d).mul (hk d)).add ((isReal_cOne.sub hm).mul isReal_cNeg)

/-! ## The maximum of a row of reals -/

/-- A maximum folded from -∞ over reals is -∞ or a real. -/
theorem fold_max_bot_or_isReal {ι : Type*} (t : Finset ι) (f : ι → EReal) (h : ∀ k, IsReal (f k)) :
    t.fold max ⊥ f = ⊥ ∨ IsReal (t.fold max ⊥ f) := by
  classical
  induction t using Finset.induction_on with
  | empty => exact Or.inl (Finset.fold_empty)
  | insert a s ha ih =>
    rw [Finset.fold_insert ha]
    right
    rcases ih with h0 | ⟨r, hr⟩
    · rw [h0, max_bot_right]; exact h a
    · obtain ⟨ra, hra⟩ := h a
      rw [hr, hra]
      exact ⟨max ra r, (EReal.coe_strictMono.monotone.map_max).symm⟩

/-- The maximum of a row of real scores is real: it is at least the first score, so it is not -∞. -/
theorem isReal_rowMax (S : Fin 2048 → EReal) (hS : ∀ k, IsReal (S k)) : IsReal (rowMax S) := by
  unfold rowMax
  rw [cNinf_eq_bot]
  rcases fold_max_bot_or_isReal Finset.univ S hS with h0 | h
  · exfalso
    have hle : S 0 ≤ (Finset.univ : Finset (Fin 2048)).fold max ⊥ S :=
      (Finset.le_fold_max _).mpr (Or.inr ⟨0, Finset.mem_univ _, le_refl _⟩)
    obtain ⟨r, hr⟩ := hS 0
    rw [h0, hr] at hle
    exact (not_le.mpr (EReal.bot_lt_coe r)) hle
  · exact h

/-! ## The two arrangements of the weighted mean agree on reals -/

theorem outK_eq_outR (S v : Fin 2048 → EReal) (hS : ∀ k, IsReal (S k)) (hv : ∀ k, IsReal (v k)) :
    outK S v = outR S v := by
  obtain ⟨M, hM⟩ := isReal_rowMax S hS
  choose s hs using hS
  choose u hu using hv
  -- the weights and their sum, as real numbers
  have hw : ∀ k, Ideal.exp (S k - rowMax S) = ((Real.exp (s k - M) : ℝ) : EReal) := by
    intro k
    rw [hs k, hM, ← EReal.coe_sub, Ideal.exp_coe]
  have hL : (∑ k, Ideal.exp (S k - rowMax S)) = ((∑ k, Real.exp (s k - M) : ℝ) : EReal) := by
    rw [← coe_sum]
    exact Finset.sum_congr rfl fun k _ => hw k
  have hLpos : (0 : ℝ) < ∑ k : Fin 2048, Real.exp (s k - M) :=
    Finset.sum_pos (fun k _ => Real.exp_pos _) ⟨0, Finset.mem_univ _⟩
  have hLne : (∑ k : Fin 2048, Real.exp (s k - M)) ≠ 0 := ne_of_gt hLpos
  have hmax : max cNinf (rowMax S) = rowMax S := by rw [cNinf_eq_bot, max_bot_left]
  unfold outK outR
  rw [hmax, cZero_eq_zero, zero_add, hL, Ideal.div_coe hLne]
  have hA : (∑ k, Ideal.exp (S k - rowMax S) * v k) = ((∑ k, Real.exp (s k - M) * u k : ℝ) : EReal) := by
    rw [← coe_sum]
    exact Finset.sum_congr rfl fun k _ => by rw [hw k, hu k, EReal.coe_mul]
  rw [hA, ← EReal.coe_mul]
  have hB : (∑ k, Ideal.div (Ideal.exp (S k - rowMax S)) ((∑ k, Real.exp (s k - M) : ℝ) : EReal) * v k)
      = ((∑ k, Real.exp (s k - M) * (1 / ∑ k, Real.exp (s k - M)) * u k : ℝ) : EReal) := by
    refine (Finset.sum_congr rfl fun k _ => ?_).trans (coe_sum _ _)
    rw [Ideal.div_coe hLne, hw k, hu k, EReal.coe_mul, EReal.coe_mul]
  rw [hB, Finset.sum_mul]
  congr 1
  exact Finset.sum_congr rfl fun k _ => by ring

/-! ## The same, over the argument arrays -/

section Arrays

variable (x : (⟨3, ![4, 2048, 1024]⟩ : Shape).Idx → EReal) (mk : (⟨2, ![4, 2048]⟩ : Shape).Idx → EReal)
  (w : (⟨2, ![1024, 3072]⟩ : Shape).Idx → EReal) (bb : (⟨1, ![3072]⟩ : Shape).Idx → EReal)

theorem isReal_projAt (o : Nat) (ho : o + 1024 ≤ 3072) (hx : ∀ i, IsReal (x i)) (hw : ∀ i, IsReal (w i))
    (hb : ∀ i, IsReal (bb i)) (b : Fin 4) (s : Fin 2048) (d : Fin 1024) : IsReal (projAt o ho x w bb b s d) :=
  isReal_proj _ _ _ (fun _ => hx _) (fun _ => hw _) (hb _)

theorem isReal_qAt (hx : ∀ i, IsReal (x i)) (hw : ∀ i, IsReal (w i)) (hb : ∀ i, IsReal (bb i))
    (b : Fin 4) (s : Fin 2048) (d : Fin 1024) : IsReal (qAt x w bb b s d) :=
  (isReal_projAt x w bb 0 _ hx hw hb b s d).mul isReal_cScale

theorem isReal_kAt (hx : ∀ i, IsReal (x i)) (hw : ∀ i, IsReal (w i)) (hb : ∀ i, IsReal (bb i))
    (b : Fin 4) (s : Fin 2048) (d : Fin 1024) : IsReal (kAt x w bb b s d) :=
  isReal_projAt x w bb 1024 _ hx hw hb b s d

theorem isReal_vAt (hx : ∀ i, IsReal (x i)) (hw : ∀ i, IsReal (w i)) (hb : ∀ i, IsReal (bb i))
    (b : Fin 4) (s : Fin 2048) (d : Fin 1024) : IsReal (vAt x w bb b s d) :=
  isReal_projAt x w bb 2048 _ hx hw hb b s d

theorem isReal_scoreRow (hx : ∀ i, IsReal (x i)) (hm : ∀ i, IsReal (mk i)) (hw : ∀ i, IsReal (w i))
    (hb : ∀ i, IsReal (bb i)) (b : Fin 4) (s k : Fin 2048) : IsReal (scoreRow x mk w bb b s k) :=
  isReal_score _ _ _ (fun d => isReal_qAt x w bb hx hw hb b s d) (fun d => isReal_kAt x w bb hx hw hb b k d) (hm _)

theorem outK_eq_outR_at (hx : ∀ i, IsReal (x i)) (hm : ∀ i, IsReal (mk i)) (hw : ∀ i, IsReal (w i))
    (hb : ∀ i, IsReal (bb i)) (b : Fin 4) (s : Fin 2048) (h : Fin 1024) :
    outK (scoreRow x mk w bb b s) (fun k => vAt x w bb b k h)
      = outR (scoreRow x mk w bb b s) (fun k => vAt x w bb b k h) :=
  outK_eq_outR _ _ (fun k => isReal_scoreRow x mk w bb hx hm hw hb b s k)
    (fun k => isReal_vAt x w bb hx hw hb b k h)

end Arrays

end Cert.Attn

end
-- ==== Proof.PreReal.lean ====
/-
  The precondition decoded: every entry of the four float inputs is a real number.

  The precondition tests, for each input array x, that |x| < +∞ at every entry (the absolute value is max x (-x) on the
  extended reals, +∞ is the word 0x7F800000), takes the conjunction of the tests over all entries of the array (a
  reduction by "and" from 1 into a single word), and conjoins the four words. If the result is 1, each of the four
  words is 1, so each test is 1 at every entry; and an extended real x with max x (-x) < ⊤ is neither ⊥ (then -x = ⊤)
  nor ⊤, hence a real number.
-/
import proofs.«112890_j41695542509961_2_alg».proof.Pre_finite_inputs
import proofs.«112890_j41695542509961_2_alg».proof.Proof.Gen.Pre_finite_inputs
import proofs.«112890_j41695542509961_2_alg».proof.Proof.Spec
import Idealize.ShloMosaic.Lib.ReduceAll
import Idealize.ShloMosaic.Lib.ValueIdx

noncomputable section

namespace Cert.PreReal

open Idealize.ShloMosaic Cert.Attn

/-- A rank-0 array has one index. -/
instance : Subsingleton Cert.Pre_finite_inputs.S_.Idx := ⟨fun a b => funext fun d => d.elim0⟩

/-- The word 0x7F800000 (exponent all ones, fraction zero, sign clear) denotes +∞. -/
theorem inf_word : Ideal.ofBits .f32 0x7F800000#32 = (⊤ : EReal) := by
  simp [Ideal.ofBits, Ideal.ieee]

/-- An extended real whose absolute value max x (-x) is below +∞ is a real number: at ⊥ the negation is ⊤, at ⊤ the
    value itself is, and either way the maximum is ⊤. -/
theorem isReal_of_abs_lt_top (x : EReal) (h : max x (-x) < ⊤) : IsReal x := by
  induction x using EReal.rec with
  | bot => simp at h
  | coe r => exact ⟨r, rfl⟩
  | top => simp at h

/-- One entry of a finiteness test, in any shape: the comparison |x i| < +∞ being the word 1 makes x i real. The
    broadcast of the rank-0 constant reads the +∞ word at every index, the absolute value and the comparison are
    entrywise; the comparison's word is 1 exactly when the strict inequality holds. -/
theorem elem {s : Shape} (hb : Cert.Pre_finite_inputs.S_.BroadcastsInDim s (![] : Fin 0 → Fin s.rank))
    (x : FVec Ideal s .f32) (i : s.Idx)
    (h : cmpf .olt (Host.absf x) (broadcastInDim s ![] hb (constant Cert.Pre_finite_inputs.S_ .f32 0x7F800000#32)) i = 1#1) :
    IsReal (x i) := by
  apply isReal_of_abs_lt_top
  have e : cmpf .olt (Host.absf x) (broadcastInDim s ![] hb (constant Cert.Pre_finite_inputs.S_ .f32 0x7F800000#32)) i
      = Ideal.cmp .olt (max (x i) (-(x i))) (Ideal.ofBits .f32 0x7F800000#32) := rfl
  rw [e, inf_word] at h
  by_contra hn
  simp [Ideal.cmp, hn] at h

/-- THE PRECONDITION DECODED: if the conjunction of the four all-entries finiteness tests is 1, every entry of every
    input is a real number. The outer conjunction of i1 words is 1 only if each conjunct is; a reduction by "and" over
    all axes that is 1 had a 1 at every entry; each entry's test is the lemma elem above. -/
theorem real_of_pre [Cert.Pre_finite_inputs.Facts]
    (x0 : FVec Ideal Cert.Pre_finite_inputs.S4x2048x1024 .f32) (x1 : FVec Ideal Cert.Pre_finite_inputs.S4x2048 .f32)
    (x2 : FVec Ideal Cert.Pre_finite_inputs.S1024x3072 .f32) (x3 : FVec Ideal Cert.Pre_finite_inputs.S3072 .f32)
    (h : Cert.Pre_finite_inputs.fn (F := Ideal) x0 x1 x2 x3 = fun _ => 1#1) :
    (∀ i, IsReal (x0 i)) ∧ (∀ i, IsReal (x1 i)) ∧ (∀ i, IsReal (x2 i)) ∧ (∀ i, IsReal (x3 i)) := by
  have e := congrFun h ValueIdx.ix0
  dsimp only [Cert.Pre_finite_inputs.fn, Cert.Pre_finite_inputs.fn_part1] at e
  change IntOp.andi (IntOp.andi (IntOp.andi _ _) _) _ = 1#1 at e
  rw [IntOp.andi_eq_one, IntOp.andi_eq_one, IntOp.andi_eq_one] at e
  obtain ⟨⟨⟨h0, h1⟩, h2⟩, h3⟩ := e
  exact ⟨fun i => elem _ x0 i (Host.reduce_andi_all _ _ _ _ _ h0 i),
    fun i => elem _ x1 i (Host.reduce_andi_all _ _ _ _ _ h1 i),
    fun i => elem _ x2 i (Host.reduce_andi_all _ _ _ _ _ h2 i),
    fun i => elem _ x3 i (Host.reduce_andi_all _ _ _ _ _ h3 i)⟩

end Cert.PreReal

end
-- ==== Proof.Assembly.lean ====
/-
  The two idealized programs end with the same result.

  The kernel's result entry (b, s, h) is `outK` of the score row (b, s) and the value column h of the arguments; the
  reference's is `outR` of the same row and column of its own arguments, which agree with the kernel's.  Under the
  precondition every entry of every argument is a real number, and on real numbers dividing a weighted sum by the sum
  of the weights is the weighted sum with every weight divided first.
-/
import proofs.«112890_j41695542509961_2_alg».proof.Defs
import proofs.«112890_j41695542509961_2_alg».proof.Proof.Gen.KernelIdeal
import proofs.«112890_j41695542509961_2_alg».proof.Proof.Gen.ReferenceIdeal
import proofs.«112890_j41695542509961_2_alg».proof.Proof.Gen.Pre_finite_inputs
import proofs.«112890_j41695542509961_2_alg».proof.Proof.Gen.ReferenceIdeal.Run
import proofs.«112890_j41695542509961_2_alg».proof.Proof.Gen.ReferenceIdeal.Read
import proofs.«112890_j41695542509961_2_alg».proof.Proof.KernelRun
import proofs.«112890_j41695542509961_2_alg».proof.Proof.Glue
import proofs.«112890_j41695542509961_2_alg».proof.Proof.RefValue
import proofs.«112890_j41695542509961_2_alg».proof.Proof.Algebra
import proofs.«112890_j41695542509961_2_alg».proof.Proof.PreReal

set_option maxRecDepth 16384

noncomputable section

namespace Cert.Proof.Assembly

open Idealize.ShloMosaic Idealize.ShloMosaic.TcCoe Idealize.SL.Sem Idealize.ShloMosaic.ValueIdx Cert.Attn

section
open Cert.KernelIdeal Cert.KernelIdeal.Gen
variable
  (hq : ∀ (V : (c : Dev nD) → (b : Ref sig .tc) → Buf (Elt Ideal) ((c : Thread nD τ).loc b)) (c : Dev nD) (r : Fin 8192) (d : Fin 1024),
      ((dat0 (F := Ideal) V c).arrAt 3 cfg0.N : S8192x1024.Idx → EReal) (ix2 r d)
        = proj (fun j => (V c main_call0_v0 : S8192x1024.Idx → EReal) (ix2 r j))
               (fun j => (V c main_arg2 : S1024x3072.Idx → EReal) (ix2 j (col 0 (by norm_num) d)))
               ((V c main_arg3 : S3072.Idx → EReal) (ix1 (col 0 (by norm_num) d))) * cScale)
  (hk : ∀ (V : (c : Dev nD) → (b : Ref sig .tc) → Buf (Elt Ideal) ((c : Thread nD τ).loc b)) (c : Dev nD) (r : Fin 8192) (d : Fin 1024),
      ((dat0 (F := Ideal) V c).arrAt 4 cfg0.N : S8192x1024.Idx → EReal) (ix2 r d)
        = proj (fun j => (V c main_call0_v0 : S8192x1024.Idx → EReal) (ix2 r j))
               (fun j => (V c main_arg2 : S1024x3072.Idx → EReal) (ix2 j (col 1024 (by norm_num) d)))
               ((V c main_arg3 : S3072.Idx → EReal) (ix1 (col 1024 (by norm_num) d))))
  (hv : ∀ (V : (c : Dev nD) → (b : Ref sig .tc) → Buf (Elt Ideal) ((c : Thread nD τ).loc b)) (c : Dev nD) (r : Fin 8192) (d : Fin 1024),
      ((dat0 (F := Ideal) V c).arrAt 5 cfg0.N : S8192x1024.Idx → EReal) (ix2 r d)
        = proj (fun j => (V c main_call0_v0 : S8192x1024.Idx → EReal) (ix2 r j))
               (fun j => (V c main_arg2 : S1024x3072.Idx → EReal) (ix2 j (col 2048 (by norm_num) d)))
               ((V c main_arg3 : S3072.Idx → EReal) (ix1 (col 2048 (by norm_num) d))))
  (ho : ∀ (V : (c : Dev nD) → (b : Ref sig .tc) → Buf (Elt Ideal) ((c : Thread nD τ).loc b)) (c : Dev nD) (b : Fin 4) (s : Fin 2048) (h : Fin 1024),
      ((dat1 (F := Ideal) V c).arrAt 4 cfg1.N : S4x2048x1024.Idx → EReal) (ix3 b s h)
        = outK (fun k => score (fun d => (V c main_call0_v2 : S4x2048x1024.Idx → EReal) (ix3 b s d))
                               (fun d => (V c main_call0_v3 : S4x2048x1024.Idx → EReal) (ix3 b k d))
                               ((V c main_call0_v5 : S4x1x2048.Idx → EReal) (ix3 b 0 k)))
               (fun k => (V c main_call0_v4 : S4x2048x1024.Idx → EReal) (ix3 b k h)))

include hq hk hv ho in
/-- From memories agreeing on the arguments both programs run, and the reference's result is the kernel's, entry by
    entry: `outR` and `outK` of one score row and one value column of real numbers. -/
theorem algebraic_of : Cert.algebraic_KernelIdeal_ReferenceIdeal := by
  intro m ρ m' ρ' hpre hagree
  refine ⟨fun c => (Cert.KernelIdeal.Gen.dat1 (Cert.KernelIdeal.Gen.V3 m ρ) c).arrAt 4 Cert.KernelIdeal.cfg1.N,
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  obtain ⟨r0, r1, r2, r3⟩ := Cert.PreReal.real_of_pre _ _ _ _ (hpre c)
  funext i
  obtain ⟨b, s, h, rfl⟩ : ∃ (b : Fin 4) (s : Fin 2048) (h : Fin 1024), i = ix3 b s h := ⟨i 0, i 1, i 2, eq_ix3 i⟩
  rw [Cert.ReferenceIdeal.RefValue.ref_at, (hagree c).1, (hagree c).2.1, (hagree c).2.2.1, (hagree c).2.2.2]
  refine Eq.trans ?_ (Cert.KernelIdeal.Glue.kernel_value m ρ hq hk hv ho c b s h).symm
  exact (outK_eq_outR_at _ _ _ _ r0 r1 r2 r3 b s h).symm

end

end Cert.Proof.Assembly

end
-- ==== Proof.lean ====
/-
  A fused QKV projection followed by softmax attention, against the same computation written with einsums.

  Both programs project every row of the input by the weights and add the bias, cut the 3072 projected columns into
  query (scaled by 2⁻⁵), key and value, score every query row against every key row of its batch with the mask's
  penalty (1 - mask) · (-10000), exponentiate each row of scores after subtracting its maximum, and average the value
  rows with those weights.  The kernel does it in two grid regions joined by reshapes — the projection over eight
  blocks of 1024 rows, the attention over (batch, tile of 512 query rows) — and divides the weighted sum by the sum
  of the weights; the reference normalizes the weights first.  On real numbers the two are one function, and the
  precondition makes every entry of every argument real.

  The pieces: `Spec` states the mathematics entry by entry; `Region0`/`Region0Blocks` and `Region1`/`Region1Blocks`
  read what each region's blocks leave in its output arrays; `HostReads` reads the reshapes; `KernelRun` is the
  kernel's run with its result named; `Glue` composes them into the kernel's value; `RefValue` reads the
  reference's result at an index; `PreReal` decodes the precondition; `Algebra` is the law joining the two sides;
  `Assembly` puts the algebraic claim together.  The three frames are the generated ones (the reference's is its run
  with the result dropped); the idealization rewrote no operation, so its claim is trivial.
-/
import proofs.«112890_j41695542509961_2_alg».proof.Defs
import proofs.«112890_j41695542509961_2_alg».proof.Proof.Gen.Kernel
import proofs.«112890_j41695542509961_2_alg».proof.Proof.Gen.Kernel.Frame
import proofs.«112890_j41695542509961_2_alg».proof.Proof.Gen.KernelIdeal
import proofs.«112890_j41695542509961_2_alg».proof.Proof.Gen.KernelIdeal.Frame
import proofs.«112890_j41695542509961_2_alg».proof.Proof.Gen.ReferenceIdeal
import proofs.«112890_j41695542509961_2_alg».proof.Proof.Gen.ReferenceIdeal.Run
import proofs.«112890_j41695542509961_2_alg».proof.Proof.Gen.Pre_finite_inputs
import proofs.«112890_j41695542509961_2_alg».proof.Proof.Region0
import proofs.«112890_j41695542509961_2_alg».proof.Proof.Region0Blocks
import proofs.«112890_j41695542509961_2_alg».proof.Proof.Region1
import proofs.«112890_j41695542509961_2_alg».proof.Proof.Region1Blocks
import proofs.«112890_j41695542509961_2_alg».proof.Proof.Assembly
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten when the kernel was read at the ideal instance. -/
theorem preserves : Cert.preserves_Kernel_KernelIdeal := trivial

/-- The two programs end with equal results: each region's output arrays read from its blocks, the reshapes read at
    an index, and the exchange of the division with the weighted sum on real numbers. -/
theorem algebraic : Cert.algebraic_KernelIdeal_ReferenceIdeal :=
  Cert.Proof.Assembly.algebraic_of
    (fun V c r d => Cert.KernelIdeal.Region0Blocks.arr_q_of V Cert.KernelIdeal.Region0.pay_q c r d)
    (fun V c r d => Cert.KernelIdeal.Region0Blocks.arr_k_of V Cert.KernelIdeal.Region0.pay_k c r d)
    (fun V c r d => Cert.KernelIdeal.Region0Blocks.arr_v_of V Cert.KernelIdeal.Region0.pay_v c r d)
    (fun V c b s h => Cert.KernelIdeal.Region1Blocks.arr_out_of V Cert.KernelIdeal.Region1.pay_at c b s h)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
